-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S16x8x8 : Shape := ⟨3, ![16, 8, 8]⟩
abbrev S16x8x128 : Shape := ⟨3, ![16, 8, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S16x8x8 : S_.BroadcastsInDim S16x8x8 (![] : Fin 0 → Fin S16x8x8.rank)
  reducesTo_S16x8x8_S_d0_1_2 : S16x8x8.ReducesTo [0, 1, 2] S_
  bcast_S_S16x8x128 : S_.BroadcastsInDim S16x8x128 (![] : Fin 0 → Fin S16x8x128.rank)
  reducesTo_S16x8x128_S_d0_1_2 : S16x8x128.ReducesTo [0, 1, 2] S_

variable [Facts]

def fn {F : FTy → Type} [FloatOps F] (main_arg0 : FVec F S50000x128 .f32) (main_arg1 : IVec S2x800000 32) (main_arg2 : FVec F S16x8x8 .f32) (main_arg3 : FVec F S16x8x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S16x8x8 .f32 := Host.absf main_arg2
  let main_cst_0 : FVec F S_ .f32 := constant S_ .f32 0x7F800000#32
  let main_v5 : FVec F S16x8x8 .f32 := broadcastInDim S16x8x8 ![] bcast_S_S16x8x8 main_cst_0
  let main_v6 : IVec S16x8x8 1 := cmpf .olt main_v4 main_v5
  let main_c_1 : IVec S_ 1 := constantI S_ 1 1#1
  let main_v7 : IVec S_ 1 := (fun x v => Host.reduce IntOp.andi x v reducesTo_S16x8x8_S_d0_1_2 h_S_) main_v6 main_c_1
  let main_v8 : IVec S_ 1 := andi main_v3 main_v7
  let main_v9 : FVec F S16x8x128 .f32 := Host.absf main_arg3
  let main_cst_2 : FVec F S_ .f32 := constant S_ .f32 0x7F800000#32
  let main_v10 : FVec F S16x8x128 .f32 := broadcastInDim S16x8x128 ![] bcast_S_S16x8x128 main_cst_2
  let main_v11 : IVec S16x8x128 1 := cmpf .olt main_v9 main_v10
  let main_c_3 : IVec S_ 1 := constantI S_ 1 1#1
  let main_v12 : IVec S_ 1 := (fun x v => Host.reduce IntOp.andi x v reducesTo_S16x8x128_S_d0_1_2 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S16x8x8 : Shape := ⟨3, ![16, 8, 8]⟩
abbrev S16x8x128 : Shape := ⟨3, ![16, 8, 128]⟩
abbrev S1x800000 : Shape := ⟨2, ![1, 800000]⟩
abbrev S800000 : Shape := ⟨1, ![800000]⟩
abbrev S50000x16 : Shape := ⟨2, ![50000, 16]⟩
abbrev S_ : Shape := ⟨0, ![]⟩
abbrev S50000x16x1 : Shape := ⟨3, ![50000, 16, 1]⟩
abbrev S50000x16x128 : Shape := ⟨3, ![50000, 16, 128]⟩
abbrev S50000x16x16 : Shape := ⟨3, ![50000, 16, 16]⟩
abbrev S16x8 : Shape := ⟨2, ![16, 8]⟩
abbrev S16 : Shape := ⟨1, ![16]⟩
abbrev S1x16 : Shape := ⟨2, ![1, 16]⟩
abbrev S16x128 : Shape := ⟨2, ![16, 128]⟩
abbrev S1000x16x128 : Shape := ⟨3, ![1000, 16, 128]⟩
abbrev S1000x16x16 : Shape := ⟨3, ![1000, 16, 16]⟩
abbrev S1000x16 : Shape := ⟨2, ![1000, 16]⟩
abbrev S1000 : Shape := ⟨1, ![1000]⟩
abbrev S1000x128 : Shape := ⟨2, ![1000, 128]⟩
abbrev S1000x1 : Shape := ⟨2, ![1000, 1]⟩
abbrev S128x16 : Shape := ⟨2, ![128, 16]⟩
abbrev S1000x1x16 : Shape := ⟨3, ![1000, 1, 16]⟩
abbrev S1000x16x1 : Shape := ⟨3, ![1000, 16, 1]⟩

abbrev nBuf : Space → Nat
  | .hbm => 53
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S16x8x8, .f32⟩
  | .hbm, ⟨3, _⟩ => ⟨S16x8x128, .f32⟩
  | .hbm, ⟨4, _⟩ => ⟨S1x800000, .i32⟩
  | .hbm, ⟨5, _⟩ => ⟨S800000, .i32⟩
  | .hbm, ⟨6, _⟩ => ⟨S50000x16, .i32⟩
  | .hbm, ⟨7, _⟩ => ⟨S_, .i32⟩
  | .hbm, ⟨8, _⟩ => ⟨S50000x16, .i32⟩
  | .hbm, ⟨9, _⟩ => ⟨S50000x16, .i1⟩
  | .hbm, ⟨10, _⟩ => ⟨S_, .i32⟩
  | .hbm, ⟨11, _⟩ => ⟨S50000x16, .i32⟩
  | .hbm, ⟨12, _⟩ => ⟨S50000x16, .i32⟩
  | .hbm, ⟨13, _⟩ => ⟨S50000x16, .i32⟩
  | .hbm, ⟨14, _⟩ => ⟨S50000x16x1, .i32⟩
  | .hbm, ⟨15, _⟩ => ⟨S50000x16x128, .f32⟩
  | .hbm, ⟨16, _⟩ => ⟨S_, .i32⟩
  | .hbm, ⟨17, _⟩ => ⟨S50000x16, .i32⟩
  | .hbm, ⟨18, _⟩ => ⟨S50000x16, .i1⟩
  | .hbm, ⟨19, _⟩ => ⟨S_, .i32⟩
  | .hbm, ⟨20, _⟩ => ⟨S50000x16, .i32⟩
  | .hbm, ⟨21, _⟩ => ⟨S50000x16, .i32⟩
  | .hbm, ⟨22, _⟩ => ⟨S50000x16, .i32⟩
  | .hbm, ⟨23, _⟩ => ⟨S50000x16x1, .i32⟩
  | .hbm, ⟨24, _⟩ => ⟨S50000x16x16, .i32⟩
  | .hbm, ⟨25, _⟩ => ⟨S16x8x128, .f32⟩
  | .hbm, ⟨26, _⟩ => ⟨S_, .f32⟩
  | .hbm, ⟨27, _⟩ => ⟨S16x8, .f32⟩
  | .hbm, ⟨28, _⟩ => ⟨S_, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S1x16, .f32⟩
  | .hbm, ⟨34, _⟩ => ⟨S_, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | .hbm, ⟨39, _⟩ => ⟨S_, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S1x16, .f32⟩
  | .hbm, ⟨45, _⟩ => ⟨S16x8x8, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S1x16, .f32⟩
  | .hbm, ⟨52, _⟩ => ⟨S50000x16, .f32⟩
  | .local _ .vmem, ⟨0, _⟩ => ⟨S1000x16x128, .f32⟩
  | .local _ .vmem, ⟨1, _⟩ => ⟨S1000x16x128, .f32⟩
  | .local _ .vmem, ⟨2, _⟩ => ⟨S1000x16x16, .i32⟩
  | .local _ .vmem, ⟨3, _⟩ => ⟨S1000x16x16, .i32⟩
  | .local _ .vmem, ⟨4, _⟩ => ⟨S1000x16, .i32⟩
  | .local _ .vmem, ⟨5, _⟩ => ⟨S1000x16, .i32⟩
  | .local _ .vmem, ⟨6, _⟩ => ⟨S1x16, .f32⟩
  | .local _ .vmem, ⟨7, _⟩ => ⟨S16x128, .f32⟩
  | .local _ .vmem, ⟨8, _⟩ => ⟨S1x16, .f32⟩
  | .local _ .vmem, ⟨9, _⟩ => ⟨S1x16, .f32⟩
  | .local _ .vmem, ⟨10, _⟩ => ⟨S1000x16, .f32⟩
  | .local _ .vmem, ⟨11, _⟩ => ⟨S1000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  shapeCasts_S800000_S50000x16 : S800000.ShapeCasts S50000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S16x8x128_S16x8_d2 : S16x8x128.ReducesTo [2] S16x8
  h_S_ : 0 < S_.numel
  reducesTo_S16x8_S16_d1 : S16x8.ReducesTo [1] S16
  bcast_S_S16 : S_.BroadcastsInDim S16 (![] : Fin 0 → Fin S16.rank)
  shapeCasts_S16_S1x16 : S16.ShapeCasts S1x16
  reducesTo_S16x8x128_S16x128_d1 : S16x8x128.ReducesTo [1] S16x128
  bcast_S_S16x128 : S_.BroadcastsInDim S16x128 (![] : Fin 0 → Fin S16x128.rank)
  reducesTo_S16x8x8_S16_d1_2 : S16x8x8.ReducesTo [1, 2] S16
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  reduces_S1000x16x128_S1000x16 : S1000x16x128.Reduces [2] S1000x16
  reduces_S1000x16_S1000 : S1000x16.Reduces [1] S1000
  reduces_S1000x16x128_S1000x128 : S1000x16x128.Reduces [1] S1000x128
  shapeCasts_S1000_S1000x1 : S1000.ShapeCasts S1000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1000x1_S1000x16 : S1000x1.Broadcasts S1000x16
  broadcasts_S1x16_S1000x16 : S1x16.Broadcasts S1000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  transposes_S16x128_p1_0_S128x16 : S16x128.Transposes [1, 0] S128x16
  inb_S1000x16x16_S1000x16x16_0_0_0 : ∀ a, (![0, 0, 0] : Fin 3 → Nat) a + S1000x16x16.size a ≤ S1000x16x16.size a
  h_S1000x16x16 : 0 < S1000x16x16.numel
  shapeCasts_S1000x16x16_S1000x16x16 : S1000x16x16.ShapeCasts S1000x16x16
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  slices_S1000x16x16_o0_0_0_S1000x1x16 : S1000x16x16.Slices ![0, 0, 0] S1000x1x16
  shapeCasts_S1000x1x16_S1000x16 : S1000x1x16.ShapeCasts S1000x16
  shapeCasts_S1000x16_S1000x16x1 : S1000x16.ShapeCasts S1000x16x1
  shapeCasts_S1000x16_S1000x1x16 : S1000x16.ShapeCasts S1000x1x16
  broadcasts_S1000x16x1_S1000x16x16 : S1000x16x1.Broadcasts S1000x16x16
  broadcasts_S1000x1x16_S1000x16x16 : S1000x1x16.Broadcasts S1000x16x16
  natLt_1_32 : 1 < 32
  reduces_S1000x16x16_S1000x16 : S1000x16x16.Reduces [1] S1000x16
  slices_S1000x16x16_o0_1_0_S1000x1x16 : S1000x16x16.Slices ![0, 1, 0] S1000x1x16
  slices_S1000x16x16_o0_2_0_S1000x1x16 : S1000x16x16.Slices ![0, 2, 0] S1000x1x16
  slices_S1000x16x16_o0_3_0_S1000x1x16 : S1000x16x16.Slices ![0, 3, 0] S1000x1x16
  slices_S1000x16x16_o0_4_0_S1000x1x16 : S1000x16x16.Slices ![0, 4, 0] S1000x1x16
  slices_S1000x16x16_o0_5_0_S1000x1x16 : S1000x16x16.Slices ![0, 5, 0] S1000x1x16
  slices_S1000x16x16_o0_6_0_S1000x1x16 : S1000x16x16.Slices ![0, 6, 0] S1000x1x16
  slices_S1000x16x16_o0_7_0_S1000x1x16 : S1000x16x16.Slices ![0, 7, 0] S1000x1x16
  slices_S1000x16x16_o0_8_0_S1000x1x16 : S1000x16x16.Slices ![0, 8, 0] S1000x1x16
  slices_S1000x16x16_o0_9_0_S1000x1x16 : S1000x16x16.Slices ![0, 9, 0] S1000x1x16
  slices_S1000x16x16_o0_10_0_S1000x1x16 : S1000x16x16.Slices ![0, 10, 0] S1000x1x16
  slices_S1000x16x16_o0_11_0_S1000x1x16 : S1000x16x16.Slices ![0, 11, 0] S1000x1x16
  slices_S1000x16x16_o0_12_0_S1000x1x16 : S1000x16x16.Slices ![0, 12, 0] S1000x1x16
  slices_S1000x16x16_o0_13_0_S1000x1x16 : S1000x16x16.Slices ![0, 13, 0] S1000x1x16
  slices_S1000x16x16_o0_14_0_S1000x1x16 : S1000x16x16.Slices ![0, 14, 0] S1000x1x16
  slices_S1000x16x16_o0_15_0_S1000x1x16 : S1000x16x16.Slices ![0, 15, 0] S1000x1x16
  concatenates_S1000x1x16_S1000x1x16_S1000x1x16_S1000x1x16_S1000x1x16_S1000x1x16_S1000x1x16_S1000x1x16_S1000x1x16_S1000x1x16_S1000x1x16_S1000x1x16_S1000x1x16_S1000x1x16_S1000x1x16_S1000x1x16_S1000x16x16_d1 : Shape.Concatenates [S1000x1x16, S1000x1x16, S1000x1x16, S1000x1x16, S1000x1x16, S1000x1x16, S1000x1x16, S1000x1x16, S1000x1x16, S1000x1x16, S1000x1x16, S1000x1x16, S1000x1x16, S1000x1x16, S1000x1x16, S1000x1x16] S1000x16x16 1
  reduces_S1000x16x16_S1000 : S1000x16x16.Reduces [1, 2] S1000
  gather_S50000x128_S50000x16x1_S50000x16x128_2_0_n_n_0_2_1128_wf : GatherDims.WF S50000x128 S50000x16x1 S50000x16x128 [2] [0] [] [0] [] 2 ![1, 128]
  gather_S50000x16_S50000x16x1_S50000x16x16_2_0_n_n_0_2_116_wf : GatherDims.WF S50000x16 S50000x16x1 S50000x16x16 [2] [0] [] [0] [] 2 ![1, 16]
  dot_S1000x128_S128x16_S1000x16_1_0_0_1_n_n_wf : DotDims.WF S1000x128 S128x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x128.size a ≤ S50000x16x128.size a
  hwx0_0 : ∀ i : grid0.Coords, EltTy.bits .f32 = 32 ∨ (Rect.block (s := S50000x16x128) S1000x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x16.size a ≤ S50000x16x16.size a
  hwx0_1 : ∀ i : grid0.Coords, EltTy.bits .i32 = 32 ∨ (Rect.block (s := S50000x16x16) S1000x16x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S50000x16.size a
  hwx0_2 : ∀ i : grid0.Coords, EltTy.bits .i32 = 32 ∨ (Rect.block (s := S50000x16) S1000x16.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x16.size a ≤ S50000x16.size a
  hwx0_7 : ∀ i : grid0.Coords, EltTy.bits .f32 = 32 ∨ (Rect.block (s := S50000x16) S1000x16.size (cc0_transform_7 i) (hinb0_7 i)).WholeWords (EltTy.packing .f32)

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def gather_S50000x16_S50000x16x1_S50000x16x16_2_0_n_n_0_2_116 : GatherDims S50000x16 S50000x16x1 S50000x16x16 where
  offsetDims := [2]
  collapsedSliceDims := [0]
  operandBatchingDims := []
  startIndicesBatchingDims := []
  startIndexMap := [0]
  indexVectorDim := 2
  sliceSizes := ![1, 16]
  wf := gather_S50000x16_S50000x16x1_S50000x16x16_2_0_n_n_0_2_116_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

abbrev win0_0 : Pipeline.Window sig grid0 :=
  Pipeline.Window.ofSpec (Memref.whole main_v9) S1000x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1000x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S16x8x8 : Shape := ⟨3, ![16, 8, 8]⟩
abbrev S16x8x128 : Shape := ⟨3, ![16, 8, 128]⟩
abbrev S1x800000 : Shape := ⟨2, ![1, 800000]⟩
abbrev S800000 : Shape := ⟨1, ![800000]⟩
abbrev S50000x16 : Shape := ⟨2, ![50000, 16]⟩
abbrev S_ : Shape := ⟨0, ![]⟩
abbrev S50000x16x1 : Shape := ⟨3, ![50000, 16, 1]⟩
abbrev S50000x16x128 : Shape := ⟨3, ![50000, 16, 128]⟩
abbrev S50000 : Shape := ⟨1, ![50000]⟩
abbrev S16x8 : Shape := ⟨2, ![16, 8]⟩
abbrev S16 : Shape := ⟨1, ![16]⟩
abbrev S16x128 : Shape := ⟨2, ![16, 128]⟩
abbrev S50000x1 : Shape := ⟨2, ![50000, 1]⟩
abbrev S1x16 : Shape := ⟨2, ![1, 16]⟩
abbrev S128x16 : Shape := ⟨2, ![128, 16]⟩
abbrev S50000x16x16 : Shape := ⟨3, ![50000, 16, 16]⟩
abbrev S50000x16x16x1 : Shape := ⟨4, ![50000, 16, 16, 1]⟩
abbrev S50000x1x1x16 : Shape := ⟨4, ![50000, 1, 1, 16]⟩
abbrev S50000x16x16x16 : Shape := ⟨4, ![50000, 16, 16, 16]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S16x8x8, .f32⟩
  | .hbm, ⟨3, _⟩ => ⟨S16x8x128, .f32⟩
  | .hbm, ⟨4, _⟩ => ⟨S1x800000, .i32⟩
  | .hbm, ⟨5, _⟩ => ⟨S800000, .i32⟩
  | .hbm, ⟨6, _⟩ => ⟨S50000x16, .i32⟩
  | .hbm, ⟨7, _⟩ => ⟨S_, .i32⟩
  | .hbm, ⟨8, _⟩ => ⟨S50000x16, .i32⟩
  | .hbm, ⟨9, _⟩ => ⟨S50000x16, .i1⟩
  | .hbm, ⟨10, _⟩ => ⟨S_, .i32⟩
  | .hbm, ⟨11, _⟩ => ⟨S50000x16, .i32⟩
  | .hbm, ⟨12, _⟩ => ⟨S50000x16, .i32⟩
  | .hbm, ⟨13, _⟩ => ⟨S50000x16, .i32⟩
  | .hbm, ⟨14, _⟩ => ⟨S50000x16x1, .i32⟩
  | .hbm, ⟨15, _⟩ => ⟨S50000x16x128, .f32⟩
  | .hbm, ⟨16, _⟩ => ⟨S50000x16x128, .f32⟩
  | .hbm, ⟨17, _⟩ => ⟨S_, .f32⟩
  | .hbm, ⟨18, _⟩ => ⟨S50000x16, .f32⟩
  | .hbm, ⟨19, _⟩ => ⟨S_, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S16x8x128, .f32⟩
  | .hbm, ⟨30, _⟩ => ⟨S_, .f32⟩
  | .hbm, ⟨31, _⟩ => ⟨S16x8, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16x128, .f32⟩
  | .hbm, ⟨39, _⟩ => ⟨S_, .f32⟩
  | .hbm, ⟨40, _⟩ => ⟨S16x128, .f32⟩
  | .hbm, ⟨41, _⟩ => ⟨S16x128, .f32⟩
  | .hbm, ⟨42, _⟩ => ⟨S50000x1, .f32⟩
  | .hbm, ⟨43, _⟩ => ⟨S1x16, .f32⟩
  | .hbm, ⟨44, _⟩ => ⟨S50000x16, .f32⟩
  | .hbm, ⟨45, _⟩ => ⟨S50000x16, .f32⟩
  | .hbm, ⟨46, _⟩ => ⟨S50000x16, .f32⟩
  | .hbm, ⟨47, _⟩ => ⟨S128x16, .f32⟩
  | .hbm, ⟨48, _⟩ => ⟨S50000x16, .f32⟩
  | .hbm, ⟨49, _⟩ => ⟨S_, .f32⟩
  | .hbm, ⟨50, _⟩ => ⟨S50000x16, .f32⟩
  | .hbm, ⟨51, _⟩ => ⟨S50000x16, .f32⟩
  | .hbm, ⟨52, _⟩ => ⟨S50000x16, .f32⟩
  | .hbm, ⟨53, _⟩ => ⟨S_, .i32⟩
  | .hbm, ⟨54, _⟩ => ⟨S50000x16, .i32⟩
  | .hbm, ⟨55, _⟩ => ⟨S50000x16, .i1⟩
  | .hbm, ⟨56, _⟩ => ⟨S_, .i32⟩
  | .hbm, ⟨57, _⟩ => ⟨S50000x16, .i32⟩
  | .hbm, ⟨58, _⟩ => ⟨S50000x16, .i32⟩
  | .hbm, ⟨59, _⟩ => ⟨S50000x16, .i32⟩
  | .hbm, ⟨60, _⟩ => ⟨S50000x16x1, .i32⟩
  | .hbm, ⟨61, _⟩ => ⟨S50000x16x16, .i32⟩
  | .hbm, ⟨62, _⟩ => ⟨S50000x16x16x1, .i32⟩
  | .hbm, ⟨63, _⟩ => ⟨S50000x1x1x16, .i32⟩
  | .hbm, ⟨64, _⟩ => ⟨S50000x16x16x16, .i32⟩
  | .hbm, ⟨65, _⟩ => ⟨S50000x16x16x16, .i32⟩
  | .hbm, ⟨66, _⟩ => ⟨S50000x16x16x16, .i1⟩
  | .hbm, ⟨67, _⟩ => ⟨S_, .i1⟩
  | .hbm, ⟨68, _⟩ => ⟨S50000x16x16, .i1⟩
  | .hbm, ⟨69, _⟩ => ⟨S50000x16x16, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S16x8x8, .f32⟩
  | .hbm, ⟨81, _⟩ => ⟨S_, .f32⟩
  | .hbm, ⟨82, _⟩ => ⟨S16, .f32⟩
  | .hbm, ⟨83, _⟩ => ⟨S_, .f32⟩
  | .hbm, ⟨84, _⟩ => ⟨S16, .f32⟩
  | .hbm, ⟨85, _⟩ => ⟨S16, .f32⟩
  | .hbm, ⟨86, _⟩ => ⟨S50000x1, .f32⟩
  | .hbm, ⟨87, _⟩ => ⟨S1x16, .f32⟩
  | .hbm, ⟨88, _⟩ => ⟨S50000x16, .f32⟩
  | .hbm, ⟨89, _⟩ => ⟨S50000x16, .f32⟩
  | .hbm, ⟨90, _⟩ => ⟨S50000x16, .f32⟩
  | .hbm, ⟨91, _⟩ => ⟨S50000x1, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S1x16, .f32⟩
  | .hbm, ⟨96, _⟩ => ⟨S50000x16, .f32⟩
  | .hbm, ⟨97, _⟩ => ⟨S50000x16, .f32⟩
  | .hbm, ⟨98, _⟩ => ⟨S50000x16, .f32⟩
  | .hbm, ⟨99, _⟩ => ⟨S50000x16, .f32⟩
  | .hbm, ⟨100, _⟩ => ⟨S_, .f32⟩
  | .hbm, ⟨101, _⟩ => ⟨S50000x16, .f32⟩
  | .hbm, ⟨102, _⟩ => ⟨S50000x16, .f32⟩
  | .hbm, ⟨103, _⟩ => ⟨S_, .f32⟩
  | .hbm, ⟨104, _⟩ => ⟨S50000x16, .f32⟩
  | .hbm, ⟨105, _⟩ => ⟨S50000x16, .f32⟩
  | .hbm, ⟨106, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_cst_19 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_21 : Ref sig .tc := ⟨.hbm, 100, rfl⟩
abbrev main_v73 : Ref sig .tc := ⟨.hbm, 101, rfl⟩
abbrev main_v74 : Ref sig .tc := ⟨.hbm, 102, rfl⟩
abbrev main_cst_22 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  shapeCasts_S800000_S50000x16 : S800000.ShapeCasts S50000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x128_S50000x16_d2 : S50000x16x128.ReducesTo [2] S50000x16
  h_S_ : 0 < S_.numel
  reducesTo_S50000x16_S50000_d1 : S50000x16.ReducesTo [1] S50000
  bcast_S_S50000 : S_.BroadcastsInDim S50000 (![] : Fin 0 → Fin S50000.rank)
  reducesTo_S50000x16x128_S50000x128_d1 : S50000x16x128.ReducesTo [1] S50000x128
  bcast_S_S50000x128 : S_.BroadcastsInDim S50000x128 (![] : Fin 0 → Fin S50000x128.rank)
  reducesTo_S16x8x128_S16x8_d2 : S16x8x128.ReducesTo [2] S16x8
  reducesTo_S16x8_S16_d1 : S16x8.ReducesTo [1] S16
  bcast_S_S16 : S_.BroadcastsInDim S16 (![] : Fin 0 → Fin S16.rank)
  reducesTo_S16x8x128_S16x128_d1 : S16x8x128.ReducesTo [1] S16x128
  bcast_S_S16x128 : S_.BroadcastsInDim S16x128 (![] : Fin 0 → Fin S16x128.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S50000x1_S50000x16_0_1 : S50000x1.BroadcastsInDim S50000x16 (![0, 1] : Fin 2 → Fin S50000x16.rank)
  bcast_S1x16_S50000x16_0_1 : S1x16.BroadcastsInDim S50000x16 (![0, 1] : Fin 2 → Fin S50000x16.rank)
  transposes_S16x128_S128x16_1_0 : S16x128.Transposes [1, 0] S128x16
  bcast_S50000x16x16_S50000x16x16x1_0_1_2 : S50000x16x16.BroadcastsInDim S50000x16x16x1 (![0, 1, 2] : Fin 3 → Fin S50000x16x16x1.rank)
  bcast_S50000x16_S50000x1x1x16_0_3 : S50000x16.BroadcastsInDim S50000x1x1x16 (![0, 3] : Fin 2 → Fin S50000x1x1x16.rank)
  bcast_S50000x16x16x1_S50000x16x16x16_0_1_2_3 : S50000x16x16x1.BroadcastsInDim S50000x16x16x16 (![0, 1, 2, 3] : Fin 4 → Fin S50000x16x16x16.rank)
  bcast_S50000x1x1x16_S50000x16x16x16_0_1_2_3 : S50000x1x1x16.BroadcastsInDim S50000x16x16x16 (![0, 1, 2, 3] : Fin 4 → Fin S50000x16x16x16.rank)
  reducesTo_S50000x16x16x16_S50000x16x16_d2 : S50000x16x16x16.ReducesTo [2] S50000x16x16
  reducesTo_S50000x16x16_S50000_d1_2 : S50000x16x16.ReducesTo [1, 2] S50000
  reducesTo_S16x8x8_S16_d1_2 : S16x8x8.ReducesTo [1, 2] S16
  bcast_S_S50000x1 : S_.BroadcastsInDim S50000x1 (![] : Fin 0 → Fin S50000x1.rank)
  gather_S50000x128_S50000x16x1_S50000x16x128_2_0_n_n_0_2_1128_wf : GatherDims.WF S50000x128 S50000x16x1 S50000x16x128 [2] [0] [] [0] [] 2 ![1, 128]
  dot_S50000x128_S128x16_S50000x16_1_0_0_1_n_n_wf : DotDims.WF S50000x128 S128x16 S50000x16 [1] [0] [0] [1] [] []
  gather_S50000x16_S50000x16x1_S50000x16x16_2_0_n_n_0_2_116_wf : GatherDims.WF S50000x16 S50000x16x1 S50000x16x16 [2] [0] [] [0] [] 2 ![1, 16]

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S50000x16x1_S50000x16x16_2_0_n_n_0_2_116 : GatherDims S50000x16 S50000x16x1 S50000x16x16 where
  offsetDims := [2]
  collapsedSliceDims := [0]
  operandBatchingDims := []
  startIndicesBatchingDims := []
  startIndexMap := [0]
  indexVectorDim := 2
  sliceSizes := ![1, 16]
  wf := gather_S50000x16_S50000x16x1_S50000x16x16_2_0_n_n_0_2_116_wf

class Facts : Prop extends Facts₀ where

variable [Facts]
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.LibRowOps.lean ====
/-
  Three more reads of rank-3 layout operations at an index, for any extents, beside the keepdims reads:

  * a slice that keeps one row `r` of the middle axis, `[a, b, c] → [a, 1, c]`, reads the operand at `(i, r, k)`;
  * an `[a, 1, c]` array cast to `[a, c]` reads, at `(i, k)`, the operand at `(i, 0, k)`;
  * hence one row of the middle axis broadcast over that axis again reads the operand at `(i, r, k)` everywhere.
-/
import Idealize.ShloMosaic.Lib.ValueIdx
import Idealize.ShloMosaic.Lib.Pipeline.Value

noncomputable section

namespace Idealize.ShloMosaic.RowOps

open Idealize.ShloMosaic Idealize.ShloMosaic.ValueIdx

variable {α : Type} {a b c : ℕ}

/-- The slice keeping row `r` of the middle axis, at `(i, u, k)`: the operand at `(i, r, k)`. -/
theorem slice_row_apply (x : (⟨3, ![a, b, c]⟩ : Shape).Idx → α) (off : Fin 3 → ℕ) (r : Fin b)
    (hoff : off = ![0, r.val, 0]) (h : (⟨3, ![a, b, c]⟩ : Shape).Slices off ⟨3, ![a, 1, c]⟩)
    (i : Fin a) (u : Fin 1) (k : Fin c) :
    extractStridedSlice ⟨3, ![a, 1, c]⟩ off x h (ix3 i u k) = x (ix3 i r k) := by
  subst hoff
  refine extractStridedSlice_apply _ x h (ix3 i u k) (ix3 i r k) fun ax => ?_
  have hu : u.val = 0 := by omega
  match ax with
  | ⟨0, _⟩ => show i.val = 0 + i.val; omega
  | ⟨1, _⟩ => show r.val = r.val + u.val; omega
  | ⟨2, _⟩ => show k.val = 0 + k.val; omega

/-- An `[a, 1, c]` array cast to `[a, c]` reads, at `(i, k)`, the operand at `(i, 0, k)`. -/
theorem shapeCast_a1c_ac_apply (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, b, 1]` array cast to `[a, b]` reads, at `(i, j)`, the operand at `(i, j, 0)`. -/
theorem shapeCast_ab1_ab_apply (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.RowOps

end
-- ==== Proof.LibIndicator.lean ====
/-
  Truth values as the extended reals 0 and 1, and counting them.

  A one-bit word becomes a float either by widening it to 32 bits and converting the signed integer (the vector unit's
  spelling of `.astype(float32)`) or by converting it as an unsigned integer (the host's): both give 1 for the word 1 and 0
  for the word 0.  An ordered "greater than" against the zero word is 1 exactly when the value is positive.  And a finite
  sum of such 0/1 values is positive exactly when one of them is 1: every term is nonnegative, so a term equal to 1 is a
  lower bound of the sum, and if no term is 1 the sum is 0.  So "count the hits, ask whether the count is positive" is "ask
  whether there is a hit".
-/
import Idealize.ShloMosaic.PureOps.Ideal.Laws
import Idealize.ShloMosaic.Lib.ValueIdx

noncomputable section

namespace Cert.LibIndicator

open Idealize.ShloMosaic Idealize.ShloMosaic.ValueIdx

/-- A one-bit word is 0 or 1. -/
theorem bit_cases (x : BitVec 1) : x = 0#1 ∨ x = 1#1 := by
  by_cases h : x = 1#1
  · exact Or.inr h
  · exact Or.inl (eq_zero_of_ne_one h)

/-- Widened to 32 bits and converted as a signed integer, a one-bit word is 1 or 0. -/
theorem sitofp_extui_bit (x : BitVec 1) :
    FloatOps.sitofp (F := Ideal) .f32 (x.setWidth 32) = if x = 1#1 then (1 : EReal) else 0 := by
  rcases bit_cases x with rfl | rfl
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

/-- Converted as an unsigned integer, a one-bit word is 1 or 0. -/
theorem uitofp_bit (x : BitVec 1) :
    FloatOps.uitofp (F := Ideal) .f32 x = if x = 1#1 then (1 : EReal) else 0 := by
  rcases bit_cases x with rfl | rfl
  · show (((0#1 : BitVec 1).toNat : ℝ) : EReal) = _
    rw [if_neg (by decide), show (0#1 : BitVec 1).toNat = 0 from by decide]; simp
  · show (((1#1 : BitVec 1).toNat : ℝ) : EReal) = _
    rw [if_pos rfl, show (1#1 : BitVec 1).toNat = 1 from by decide]; simp

/-- The ordered "greater than" of two extended reals is the word 1 iff the first is the greater. -/
theorem cmpf_ogt_eq_one (x y : EReal) : FloatOps.cmpf (F := Ideal) (φ := .f32) .ogt x y = 1#1 ↔ y < x := by
  show Ideal.cmp .ogt x y = 1#1 ↔ _
  unfold Ideal.cmp
  by_cases h : y < x
  · simp [h]
  · simp [h]

/-- A finite sum of 0/1 values is positive iff one of them is 1. -/
theorem sum_indicator_pos {ι : Type} [Fintype ι] (P : ι → Prop) [DecidablePred P] :
    (0 : EReal) < ∑ e : ι, (if P e then (1 : EReal) else 0) ↔ ∃ e, P e := by
  constructor
  · intro h
    by_contra hne
    have hz : ∑ e : ι, (if P e then (1 : EReal) else 0) = 0 :=
      Finset.sum_eq_zero fun e _ => if_neg fun he => hne ⟨e, he⟩
    rw [hz] at h
    exact lt_irrefl _ h
  · rintro ⟨e, he⟩
    have hle : (if P e then (1 : EReal) else 0) ≤ ∑ e' : ι, (if P e' then (1 : EReal) else 0) :=
      Finset.single_le_sum (f := fun e' => if P e' then (1 : EReal) else 0)
        (fun e' _ => by by_cases h : P e' <;> simp [h]) (Finset.mem_univ e)
    rw [if_pos he] at hle
    exact lt_of_lt_of_le zero_lt_one hle

/-- "The count of hits is positive", as a 0/1 value, is "there is a hit", as a 0/1 value. -/
theorem indicator_count_pos {ι : Type} [Fintype ι] (P : ι → Prop) [DecidablePred P] [Decidable (∃ e, P e)] :
    (if (0 : EReal) < ∑ e : ι, (if P e then (1 : EReal) else 0) then (1 : EReal) else 0)
      = if ∃ e, P e then (1 : EReal) else 0 := by
  by_cases h : ∃ e, P e
  · rw [if_pos h, if_pos ((sum_indicator_pos P).2 h)]
  · rw [if_neg h, if_neg fun h' => h ((sum_indicator_pos P).1 h')]

end Cert.LibIndicator

end
-- ==== Proof.LibHitCount.lean ====
/-
  Counting, for each row p and each column q, how many entries of a row of ids equal a second array's entry (p, q) — in
  the vector unit's spelling, for any extents.

  The row of ids `row : [a, k]` is given a trailing unit axis and spread to [a, k, b]; the second array `ids : [a, b]` is
  given a middle unit axis and spread to [a, k, b]; the two are compared for equality entry by entry, the truth values
  are widened and converted to floats, and the result is summed along the middle axis.  Entry (p, e, q) of the comparison
  is "row (p, e) = ids (p, q)", so entry (p, q) of the sum is the number of e with row (p, e) = ids (p, q), as an extended
  real.  The row of ids is itself row r of the middle axis of an [a, m, k] array (a slice [a, 1, k] cast to [a, k]).
-/
import proofs.«157226_j10977936409018_1_alg».proof.Proof.LibKeepdims
import proofs.«157226_j10977936409018_1_alg».proof.Proof.LibRowOps
import proofs.«157226_j10977936409018_1_alg».proof.Proof.LibIndicator
import Idealize.ShloMosaic.Lib.Affine

noncomputable section

namespace Cert.LibHitCount

open Idealize.ShloMosaic Idealize.ShloMosaic.ValueIdx

variable {a k b m : ℕ}

/-- Entry (p, e, q) of the comparison: the truth value of "row (p, e) = ids (p, q)". -/
theorem compare_apply (row : IVec ⟨2, ![a, k]⟩ 32) (ids : IVec ⟨2, ![a, b]⟩ 32)
    (h1 : (⟨2, ![a, k]⟩ : Shape).ShapeCasts ⟨3, ![a, k, 1]⟩) (h2 : (⟨2, ![a, b]⟩ : Shape).ShapeCasts ⟨3, ![a, 1, b]⟩)
    (hb1 : (⟨3, ![a, k, 1]⟩ : Shape).Broadcasts ⟨3, ![a, k, b]⟩) (hb2 : (⟨3, ![a, 1, b]⟩ : Shape).Broadcasts ⟨3, ![a, k, b]⟩)
    (p : Fin a) (e : Fin k) (q : Fin b) :
    cmpi .eq (broadcastTo ⟨3, ![a, k, b]⟩ (shapeCast ⟨3, ![a, k, 1]⟩ row h1) hb1)
        (broadcastTo ⟨3, ![a, k, b]⟩ (shapeCast ⟨3, ![a, 1, b]⟩ ids h2) hb2) (ix3 p e q)
      = IntOp.cmpi .eq (row (ix2 p e)) (ids (ix2 p q)) := by
  show IntOp.cmpi .eq (broadcastTo ⟨3, ![a, k, b]⟩ (shapeCast ⟨3, ![a, k, 1]⟩ row h1) hb1 (ix3 p e q))
      (broadcastTo ⟨3, ![a, k, b]⟩ (shapeCast ⟨3, ![a, 1, b]⟩ ids h2) hb2 (ix3 p e q)) = _
  rw [Keepdims.broadcastTo_ab1_abc_apply, Keepdims.shapeCast_ab_ab1_apply, Keepdims.broadcastTo_a1c_abc_apply,
    Keepdims.shapeCast_ac_a1c_apply]

/-- The truth values widened, converted and summed along the middle axis, at (p, q): the number of e whose truth value
    at (p, e, q) is 1. -/
theorem count_apply (t : IVec ⟨3, ![a, k, b]⟩ 1) (hlt : 1 < 32)
    (hr : (⟨3, ![a, k, b]⟩ : Shape).Reduces [1] ⟨2, ![a, b]⟩) (hφ : FKind.Formats .f32)
    (hacc : (0x00000000#32 : BitVec 32) = FKind.add.neutral .f32 hφ) (p : Fin a) (q : Fin b) :
    multiReduction .add [1] ⟨2, ![a, b]⟩ (sitofp (F := Ideal) .f32 (extui 32 t hlt)) 0x00000000#32 hr hφ hacc (ix2 p q)
      = ∑ e : Fin k, if t (ix3 p e q) = 1#1 then (1 : EReal) else 0 := by
  rw [Keepdims.multiReduction_add_middle]
  refine Finset.sum_congr rfl fun e _ => ?_
  exact Cert.LibIndicator.sitofp_extui_bit (t (ix3 p e q))

/-- The whole count, at (p, q): the number of e with row (p, e) = ids (p, q). -/
theorem hitCount_apply (row : IVec ⟨2, ![a, k]⟩ 32) (ids : IVec ⟨2, ![a, b]⟩ 32)
    (h1 : (⟨2, ![a, k]⟩ : Shape).ShapeCasts ⟨3, ![a, k, 1]⟩) (h2 : (⟨2, ![a, b]⟩ : Shape).ShapeCasts ⟨3, ![a, 1, b]⟩)
    (hb1 : (⟨3, ![a, k, 1]⟩ : Shape).Broadcasts ⟨3, ![a, k, b]⟩) (hb2 : (⟨3, ![a, 1, b]⟩ : Shape).Broadcasts ⟨3, ![a, k, b]⟩)
    (hlt : 1 < 32) (hr : (⟨3, ![a, k, b]⟩ : Shape).Reduces [1] ⟨2, ![a, b]⟩) (hφ : FKind.Formats .f32)
    (hacc : (0x00000000#32 : BitVec 32) = FKind.add.neutral .f32 hφ) (p : Fin a) (q : Fin b) :
    multiReduction .add [1] ⟨2, ![a, b]⟩
        (sitofp (F := Ideal) .f32 (extui 32 (cmpi .eq (broadcastTo ⟨3, ![a, k, b]⟩ (shapeCast ⟨3, ![a, k, 1]⟩ row h1) hb1)
          (broadcastTo ⟨3, ![a, k, b]⟩ (shapeCast ⟨3, ![a, 1, b]⟩ ids h2) hb2)) hlt)) 0x00000000#32 hr hφ hacc (ix2 p q)
      = ∑ e : Fin k, if row (ix2 p e) = ids (ix2 p q) then (1 : EReal) else 0 := by
  rw [count_apply]
  refine Finset.sum_congr rfl fun e _ => ?_
  rw [compare_apply]
  exact if_congr IntOp.cmpi_eq rfl rfl

/-- Row r of the middle axis of an [a, m, k] array, cut out as [a, 1, k] and cast to [a, k], at (p, e): the array at
    (p, r, e). -/
theorem rowOf_apply {α : Type} (x : (⟨3, ![a, m, k]⟩ : Shape).Idx → α) (off : Fin 3 → ℕ) (r : Fin m) (hoff : off = ![0, r.val, 0])
    (hs : (⟨3, ![a, m, k]⟩ : Shape).Slices off ⟨3, ![a, 1, k]⟩) (hc : (⟨3, ![a, 1, k]⟩ : Shape).ShapeCasts ⟨2, ![a, k]⟩)
    (p : Fin a) (e : Fin k) :
    shapeCast ⟨2, ![a, k]⟩ (extractStridedSlice ⟨3, ![a, 1, k]⟩ off x hs) hc (ix2 p e) = x (ix3 p r e) := by
  rw [RowOps.shapeCast_a1c_ac_apply, RowOps.slice_row_apply x off r hoff hs]

end Cert.LibHitCount

end
-- ==== Proof.LibMiddleStack.lean ====
/-
  Pieces of shape [a, 1, c] stacked along the middle axis into [a, N, c], read at an entry, for any extents.

  Piece r fills row r of the middle axis: entry (i, r, k) of the stack is entry (i, 0, k) of piece r.  Stated for a family
  of N pieces, and for sixteen pieces written out as a list.
-/
import Idealize.ShloMosaic.Lib.Pipeline.Value
import Idealize.ShloMosaic.Lib.ValueIdx

noncomputable section

namespace Cert.LibMiddleStack

open Idealize.ShloMosaic Idealize.ShloMosaic.ValueIdx

variable {α : Type} {a c : ℕ}

/-- Entry (i, r, k) of the stack of N pieces is entry (i, 0, k) of piece r. -/
theorem stack_apply {N : ℕ} (y : Fin N → ((⟨3, ![a, 1, c]⟩ : Shape).Idx → α))
    (h : Shape.Concatenates ((List.ofFn fun n : Fin N => (⟨⟨3, ![a, 1, c]⟩, y n⟩ : (s : Shape) × (s.Idx → α))).map (·.1))
      ⟨3, ![a, N, c]⟩ 1)
    (i : Fin a) (r : Fin N) (k : Fin c) :
    concatenate ⟨3, ![a, N, c]⟩ 1 (List.ofFn fun n : Fin N => (⟨⟨3, ![a, 1, c]⟩, y n⟩ : (s : Shape) × (s.Idx → α))) h (ix3 i r k)
      = y r (ix3 i (0 : Fin 1) k) :=
  concatenate_ofFn_unit_apply (t := ⟨3, ![a, N, c]⟩) (s₁ := ⟨3, ![a, 1, c]⟩) (1 : Fin 3) y h rfl rfl (ix3 i r k) r rfl (ix3 i (0 : Fin 1) k) (fun b hb => by
    match b with
    | ⟨0, _⟩ => rfl
    | ⟨1, _⟩ => exact absurd rfl hb
    | ⟨2, _⟩ => rfl)

/-- The same for sixteen pieces written out as a list. -/
theorem stack16_apply (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (r : Fin 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i r k)
      = (![y0, y1, y2, y3, y4, y5, y6, y7, y8, y9, y10, y11, y12, y13, y14, y15] r) (ix3 i (0 : Fin 1) k) :=
  stack_apply (N := 16) ![y0, y1, y2, y3, y4, y5, y6, y7, y8, y9, y10, y11, y12, y13, y14, y15] h i r k

/-- Row 0 of the stack of sixteen is piece 0. -/
theorem stack16_at_0 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 0 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨0, hk⟩ : Fin 16) k)
      = y0 (ix3 i (0 : Fin 1) k) :=
  stack16_apply y0 y1 y2 y3 y4 y5 y6 y7 y8 y9 y10 y11 y12 y13 y14 y15 h i ⟨0, hk⟩ k

/-- Row 1 of the stack of sixteen is piece 1. -/
theorem stack16_at_1 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 1 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨1, hk⟩ : Fin 16) k)
      = y1 (ix3 i (0 : Fin 1) k) :=
  stack16_apply y0 y1 y2 y3 y4 y5 y6 y7 y8 y9 y10 y11 y12 y13 y14 y15 h i ⟨1, hk⟩ k

/-- Row 2 of the stack of sixteen is piece 2. -/
theorem stack16_at_2 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 2 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨2, hk⟩ : Fin 16) k)
      = y2 (ix3 i (0 : Fin 1) k) :=
  stack16_apply y0 y1 y2 y3 y4 y5 y6 y7 y8 y9 y10 y11 y12 y13 y14 y15 h i ⟨2, hk⟩ k

/-- Row 3 of the stack of sixteen is piece 3. -/
theorem stack16_at_3 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 3 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨3, hk⟩ : Fin 16) k)
      = y3 (ix3 i (0 : Fin 1) k) :=
  stack16_apply y0 y1 y2 y3 y4 y5 y6 y7 y8 y9 y10 y11 y12 y13 y14 y15 h i ⟨3, hk⟩ k

/-- Row 4 of the stack of sixteen is piece 4. -/
theorem stack16_at_4 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 4 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨4, hk⟩ : Fin 16) k)
      = y4 (ix3 i (0 : Fin 1) k) :=
  stack16_apply y0 y1 y2 y3 y4 y5 y6 y7 y8 y9 y10 y11 y12 y13 y14 y15 h i ⟨4, hk⟩ k

/-- Row 5 of the stack of sixteen is piece 5. -/
theorem stack16_at_5 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 5 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨5, hk⟩ : Fin 16) k)
      = y5 (ix3 i (0 : Fin 1) k) :=
  stack16_apply y0 y1 y2 y3 y4 y5 y6 y7 y8 y9 y10 y11 y12 y13 y14 y15 h i ⟨5, hk⟩ k

/-- Row 6 of the stack of sixteen is piece 6. -/
theorem stack16_at_6 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 6 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨6, hk⟩ : Fin 16) k)
      = y6 (ix3 i (0 : Fin 1) k) :=
  stack16_apply y0 y1 y2 y3 y4 y5 y6 y7 y8 y9 y10 y11 y12 y13 y14 y15 h i ⟨6, hk⟩ k

/-- Row 7 of the stack of sixteen is piece 7. -/
theorem stack16_at_7 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 7 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨7, hk⟩ : Fin 16) k)
      = y7 (ix3 i (0 : Fin 1) k) :=
  stack16_apply y0 y1 y2 y3 y4 y5 y6 y7 y8 y9 y10 y11 y12 y13 y14 y15 h i ⟨7, hk⟩ k

/-- Row 8 of the stack of sixteen is piece 8. -/
theorem stack16_at_8 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 8 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨8, hk⟩ : Fin 16) k)
      = y8 (ix3 i (0 : Fin 1) k) :=
  stack16_apply y0 y1 y2 y3 y4 y5 y6 y7 y8 y9 y10 y11 y12 y13 y14 y15 h i ⟨8, hk⟩ k

/-- Row 9 of the stack of sixteen is piece 9. -/
theorem stack16_at_9 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 9 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨9, hk⟩ : Fin 16) k)
      = y9 (ix3 i (0 : Fin 1) k) :=
  stack16_apply y0 y1 y2 y3 y4 y5 y6 y7 y8 y9 y10 y11 y12 y13 y14 y15 h i ⟨9, hk⟩ k

/-- Row 10 of the stack of sixteen is piece 10. -/
theorem stack16_at_10 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 10 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨10, hk⟩ : Fin 16) k)
      = y10 (ix3 i (0 : Fin 1) k) :=
  stack16_apply y0 y1 y2 y3 y4 y5 y6 y7 y8 y9 y10 y11 y12 y13 y14 y15 h i ⟨10, hk⟩ k

/-- Row 11 of the stack of sixteen is piece 11. -/
theorem stack16_at_11 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 11 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨11, hk⟩ : Fin 16) k)
      = y11 (ix3 i (0 : Fin 1) k) :=
  stack16_apply y0 y1 y2 y3 y4 y5 y6 y7 y8 y9 y10 y11 y12 y13 y14 y15 h i ⟨11, hk⟩ k

/-- Row 12 of the stack of sixteen is piece 12. -/
theorem stack16_at_12 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 12 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨12, hk⟩ : Fin 16) k)
      = y12 (ix3 i (0 : Fin 1) k) :=
  stack16_apply y0 y1 y2 y3 y4 y5 y6 y7 y8 y9 y10 y11 y12 y13 y14 y15 h i ⟨12, hk⟩ k

/-- Row 13 of the stack of sixteen is piece 13. -/
theorem stack16_at_13 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 13 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨13, hk⟩ : Fin 16) k)
      = y13 (ix3 i (0 : Fin 1) k) :=
  stack16_apply y0 y1 y2 y3 y4 y5 y6 y7 y8 y9 y10 y11 y12 y13 y14 y15 h i ⟨13, hk⟩ k

/-- Row 14 of the stack of sixteen is piece 14. -/
theorem stack16_at_14 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 14 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨14, hk⟩ : Fin 16) k)
      = y14 (ix3 i (0 : Fin 1) k) :=
  stack16_apply y0 y1 y2 y3 y4 y5 y6 y7 y8 y9 y10 y11 y12 y13 y14 y15 h i ⟨14, hk⟩ k

/-- Row 15 of the stack of sixteen is piece 15. -/
theorem stack16_at_15 (y0 y1 y2 y3 y4 y5 y6 y7 y8 y9 y10 y11 y12 y13 y14 y15 : (⟨3, ![a, 1, c]⟩ : Shape).Idx → α)
    (h : Shape.Concatenates (([⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] :
      List ((s : Shape) × (s.Idx → α))).map (·.1)) ⟨3, ![a, 16, c]⟩ 1)
    (i : Fin a) (hk : 15 < 16) (k : Fin c) :
    concatenate ⟨3, ![a, 16, c]⟩ 1 [⟨⟨3, ![a, 1, c]⟩, y0⟩, ⟨⟨3, ![a, 1, c]⟩, y1⟩, ⟨⟨3, ![a, 1, c]⟩, y2⟩, ⟨⟨3, ![a, 1, c]⟩, y3⟩, ⟨⟨3, ![a, 1, c]⟩, y4⟩, ⟨⟨3, ![a, 1, c]⟩, y5⟩, ⟨⟨3, ![a, 1, c]⟩, y6⟩, ⟨⟨3, ![a, 1, c]⟩, y7⟩, ⟨⟨3, ![a, 1, c]⟩, y8⟩, ⟨⟨3, ![a, 1, c]⟩, y9⟩, ⟨⟨3, ![a, 1, c]⟩, y10⟩, ⟨⟨3, ![a, 1, c]⟩, y11⟩, ⟨⟨3, ![a, 1, c]⟩, y12⟩, ⟨⟨3, ![a, 1, c]⟩, y13⟩, ⟨⟨3, ![a, 1, c]⟩, y14⟩, ⟨⟨3, ![a, 1, c]⟩, y15⟩] h (ix3 i (⟨15, hk⟩ : Fin 16) k)
      = y15 (ix3 i (0 : Fin 1) k) :=
  stack16_apply y0 y1 y2 y3 y4 y5 y6 y7 y8 y9 y10 y11 y12 y13 y14 y15 h i ⟨15, hk⟩ k

end Cert.LibMiddleStack

end
-- ==== Proof.TemplateDistance.lean ====
/-
  The quantity both programs compute, for one node and one template, as a function of that node's row data.

  A node has sixteen neighbours.  Its row data are: the neighbours' feature rows `f r k` (sixteen rows of 128 features), the
  neighbours' own neighbour ids `non r e` (sixteen rows of sixteen ids), and the node's neighbour ids `nb q`.  A template
  contributes four numbers: the mean squared norm `tsq` of its feature rows, its mean feature row `tmean k`, the mean
  `mct` of its structure matrix and the mean `mct2` of the squares.

  * The feature term is  E‖f‖² + tsq − 2 ⟨E f, tmean⟩,  the means taken over the sixteen neighbours.
  * The induced adjacency has entry (r, q) equal to 1 when neighbour q's id occurs among neighbour r's neighbour ids, else
    0; `density` is its mean over the 256 entries.  The structure term is  density + mct2 − (2·density)·mct.
  * The result is half the feature term plus half the structure term.

  The float constants 16, 256, 2 and ½ are kept as the words both programs print, so neither side ever evaluates them.
-/
import Idealize.ShloMosaic.PureOps.Ideal
import proofs.«157226_j10977936409018_1_alg».proof.Proof.LibIndicator

noncomputable section

namespace Cert.TemplateDistance

open Idealize.ShloMosaic

/-- The float words the programs print: 16, 256, 2 and ½. -/
abbrev c16 : EReal := Ideal.ofBits .f32 0x41800000#32
abbrev c256 : EReal := Ideal.ofBits .f32 0x43800000#32
abbrev c2 : EReal := Ideal.ofBits .f32 0x40000000#32
abbrev cHalf : EReal := Ideal.ofBits .f32 0x3F000000#32

/-- The mean over the sixteen neighbours of the squared norm of a feature row. -/
def sqMean (f : Fin 16 → Fin 128 → EReal) : EReal :=
  Ideal.div (∑ r : Fin 16, ∑ k : Fin 128, f r k * f r k) c16

/-- Feature k of the mean feature row. -/
def featMean (f : Fin 16 → Fin 128 → EReal) (k : Fin 128) : EReal :=
  Ideal.div (∑ r : Fin 16, f r k) c16

/-- The feature term. -/
def featTerm (f : Fin 16 → Fin 128 → EReal) (tsq : EReal) (tmean : Fin 128 → EReal) : EReal :=
  (sqMean f + tsq) - c2 * ∑ k : Fin 128, featMean f k * tmean k

/-- Entry (r, q) of the induced adjacency: 1 when id `nb q` occurs in row r of `non`. -/
def adj (non : Fin 16 → Fin 16 → BitVec 32) (nb : Fin 16 → BitVec 32) (r q : Fin 16) : EReal :=
  if ∃ e : Fin 16, non r e = nb q then 1 else 0

/-- The number of ids in row r of `non` equal to `nb q`. -/
def hits (non : Fin 16 → Fin 16 → BitVec 32) (nb : Fin 16 → BitVec 32) (r q : Fin 16) : EReal :=
  ∑ e : Fin 16, if non r e = nb q then (1 : EReal) else 0

/-- "The number of hits is positive", as 0 or 1, is the adjacency entry. -/
theorem pos_hits_eq_adj (non : Fin 16 → Fin 16 → BitVec 32) (nb : Fin 16 → BitVec 32) (r q : Fin 16) :
    (if (0 : EReal) < hits non nb r q then (1 : EReal) else 0) = adj non nb r q := by
  unfold hits adj
  exact Cert.LibIndicator.indicator_count_pos fun e => non r e = nb q

/-- The mean of the induced adjacency over its 256 entries. -/
def density (non : Fin 16 → Fin 16 → BitVec 32) (nb : Fin 16 → BitVec 32) : EReal :=
  Ideal.div (∑ r : Fin 16, ∑ q : Fin 16, adj non nb r q) c256

/-- The structure term, from the density. -/
def structTerm (d mct mct2 : EReal) : EReal :=
  (d + mct2) - (c2 * d) * mct

/-- The result for one node and one template. -/
def distance (f : Fin 16 → Fin 128 → EReal) (non : Fin 16 → Fin 16 → BitVec 32) (nb : Fin 16 → BitVec 32)
    (tsq : EReal) (tmean : Fin 128 → EReal) (mct mct2 : EReal) : EReal :=
  cHalf * featTerm f tsq tmean + cHalf * structTerm (density non nb) mct mct2

end Cert.TemplateDistance

end
-- ==== Proof.KernelCounts.lean ====
/-
  The comparison counts of the kernel body, read at an entry.

  The body cuts the [1000, 16, 16] block of neighbour-of-neighbour ids into its sixteen rows of the middle axis; row r is
  compared with the node's own sixteen neighbour ids and the hits are counted along the row, giving a [1000, 16] array
  whose entry (p, q) is the number of ids in row r of node p equal to neighbour q's id.  The sixteen arrays are stacked
  along a new middle axis into [1000, 16, 16].  Here each of the sixteen counts, and then the stack, is read at an entry:
  entry (p, r, q) of the stack is `hits` of node p's row data at (r, q).
-/
import proofs.«157226_j10977936409018_1_alg».proof.Proof.Gen.KernelIdeal.Skeleton
import proofs.«157226_j10977936409018_1_alg».proof.Proof.LibHitCount
import proofs.«157226_j10977936409018_1_alg».proof.Proof.LibMiddleStack
import proofs.«157226_j10977936409018_1_alg».proof.Proof.TemplateDistance

noncomputable section

namespace Cert.KernelIdeal.Counts

open Idealize.ShloMosaic Idealize.ShloMosaic.ValueIdx Cert.KernelIdeal Cert.KernelIdeal.Gen Cert.TemplateDistance

/-- The number of ids in row r of node p's neighbour-of-neighbour ids equal to neighbour q's id. -/
abbrev H (v24 : IVec S1000x16x16 32) (v26 : IVec S1000x16 32) (p : Fin 1000) (r q : Fin 16) : EReal :=
  hits (fun r e => v24 (ix3 p r e)) (fun b => v26 (ix2 p b)) r q

/-- The two id blocks enter through identity casts. -/
theorem pay3_eq (v23 : IVec S1000x16x16 32) : k0_pay3 (F := Ideal) v23 = v23 := by
  unfold k0_pay3; exact shapeCast_self _ _

theorem pay4_eq (v25 : IVec S1000x16 32) : k0_pay4 (F := Ideal) v25 = v25 := by
  unfold k0_pay4; exact shapeCast_self _ _

/-- Row 0. -/
theorem pay5_apply (v24 : IVec S1000x16x16 32) (v26 : IVec S1000x16 32) (p : Fin 1000) (q : Fin 16) :
    k0_pay5 (F := Ideal) v24 v26 (ix2 p q) = H v24 v26 p 0 q := by
  unfold k0_pay5
  rw [pay3_eq, pay4_eq]
  refine (Cert.LibHitCount.hitCount_apply _ v26 _ _ _ _ _ _ _ _ p q).trans ?_
  refine Finset.sum_congr rfl fun e _ => ?_
  have hrow := Cert.LibHitCount.rowOf_apply v24 ![0, 0, 0] (0 : Fin 16) rfl slices_S1000x16x16_o0_0_0_S1000x1x16 shapeCasts_S1000x1x16_S1000x16 p e
  rw [hrow]

/-- Row 1 is cut out in one piece of the body and counted in the next. -/
theorem pay6_apply (v24 : IVec S1000x16x16 32) (p : Fin 1000) (e : Fin 16) :
    k0_pay6 (F := Ideal) v24 (ix2 p e) = v24 (ix3 p 1 e) := by
  unfold k0_pay6
  rw [pay3_eq]
  exact Cert.LibHitCount.rowOf_apply v24 ![0, 1, 0] (1 : Fin 16) rfl slices_S1000x16x16_o0_1_0_S1000x1x16 shapeCasts_S1000x1x16_S1000x16 p e

theorem pay7_apply (v24 : IVec S1000x16x16 32) (v26 v38 : IVec S1000x16 32)
    (h38 : ∀ (p : Fin 1000) (e : Fin 16), v38 (ix2 p e) = v24 (ix3 p 1 e)) (p : Fin 1000) (q : Fin 16) :
    k0_pay7 (F := Ideal) v26 v38 (ix2 p q) = H v24 v26 p 1 q := by
  unfold k0_pay7
  refine (Cert.LibHitCount.hitCount_apply v38 v26 _ _ _ _ _ _ _ _ p q).trans ?_
  refine Finset.sum_congr rfl fun e _ => ?_
  rw [h38 p e]

/-- Row 2. -/
theorem pay8_apply (v24 : IVec S1000x16x16 32) (v26 : IVec S1000x16 32) (p : Fin 1000) (q : Fin 16) :
    k0_pay8 (F := Ideal) v24 v26 (ix2 p q) = H v24 v26 p 2 q := by
  unfold k0_pay8
  refine (Cert.LibHitCount.hitCount_apply _ v26 _ _ _ _ _ _ _ _ p q).trans ?_
  refine Finset.sum_congr rfl fun e _ => ?_
  have hrow := Cert.LibHitCount.rowOf_apply v24 ![0, 2, 0] (2 : Fin 16) rfl slices_S1000x16x16_o0_2_0_S1000x1x16 shapeCasts_S1000x1x16_S1000x16 p e
  rw [hrow]

/-- Row 3. -/
theorem pay9_apply (v24 : IVec S1000x16x16 32) (v26 : IVec S1000x16 32) (p : Fin 1000) (q : Fin 16) :
    k0_pay9 (F := Ideal) v24 v26 (ix2 p q) = H v24 v26 p 3 q := by
  unfold k0_pay9
  refine (Cert.LibHitCount.hitCount_apply _ v26 _ _ _ _ _ _ _ _ p q).trans ?_
  refine Finset.sum_congr rfl fun e _ => ?_
  have hrow := Cert.LibHitCount.rowOf_apply v24 ![0, 3, 0] (3 : Fin 16) rfl slices_S1000x16x16_o0_3_0_S1000x1x16 shapeCasts_S1000x1x16_S1000x16 p e
  rw [hrow]

/-- Row 4. -/
theorem pay10_apply (v24 : IVec S1000x16x16 32) (v26 : IVec S1000x16 32) (p : Fin 1000) (q : Fin 16) :
    k0_pay10 (F := Ideal) v24 v26 (ix2 p q) = H v24 v26 p 4 q := by
  unfold k0_pay10
  refine (Cert.LibHitCount.hitCount_apply _ v26 _ _ _ _ _ _ _ _ p q).trans ?_
  refine Finset.sum_congr rfl fun e _ => ?_
  have hrow := Cert.LibHitCount.rowOf_apply v24 ![0, 4, 0] (4 : Fin 16) rfl slices_S1000x16x16_o0_4_0_S1000x1x16 shapeCasts_S1000x1x16_S1000x16 p e
  rw [hrow]

/-- Row 5. -/
theorem pay11_apply (v24 : IVec S1000x16x16 32) (v26 : IVec S1000x16 32) (p : Fin 1000) (q : Fin 16) :
    k0_pay11 (F := Ideal) v24 v26 (ix2 p q) = H v24 v26 p 5 q := by
  unfold k0_pay11
  refine (Cert.LibHitCount.hitCount_apply _ v26 _ _ _ _ _ _ _ _ p q).trans ?_
  refine Finset.sum_congr rfl fun e _ => ?_
  have hrow := Cert.LibHitCount.rowOf_apply v24 ![0, 5, 0] (5 : Fin 16) rfl slices_S1000x16x16_o0_5_0_S1000x1x16 shapeCasts_S1000x1x16_S1000x16 p e
  rw [hrow]

/-- Row 7. -/
theorem pay14_apply (v24 : IVec S1000x16x16 32) (v26 : IVec S1000x16 32) (p : Fin 1000) (q : Fin 16) :
    k0_pay14 (F := Ideal) v24 v26 (ix2 p q) = H v24 v26 p 7 q := by
  unfold k0_pay14
  refine (Cert.LibHitCount.hitCount_apply _ v26 _ _ _ _ _ _ _ _ p q).trans ?_
  refine Finset.sum_congr rfl fun e _ => ?_
  have hrow := Cert.LibHitCount.rowOf_apply v24 ![0, 7, 0] (7 : Fin 16) rfl slices_S1000x16x16_o0_7_0_S1000x1x16 shapeCasts_S1000x1x16_S1000x16 p e
  rw [hrow]

/-- Row 8. -/
theorem pay15_apply (v24 : IVec S1000x16x16 32) (v26 : IVec S1000x16 32) (p : Fin 1000) (q : Fin 16) :
    k0_pay15 (F := Ideal) v24 v26 (ix2 p q) = H v24 v26 p 8 q := by
  unfold k0_pay15
  refine (Cert.LibHitCount.hitCount_apply _ v26 _ _ _ _ _ _ _ _ p q).trans ?_
  refine Finset.sum_congr rfl fun e _ => ?_
  have hrow := Cert.LibHitCount.rowOf_apply v24 ![0, 8, 0] (8 : Fin 16) rfl slices_S1000x16x16_o0_8_0_S1000x1x16 shapeCasts_S1000x1x16_S1000x16 p e
  rw [hrow]

/-- Row 9. -/
theorem pay16_apply (v24 : IVec S1000x16x16 32) (v26 : IVec S1000x16 32) (p : Fin 1000) (q : Fin 16) :
    k0_pay16 (F := Ideal) v24 v26 (ix2 p q) = H v24 v26 p 9 q := by
  unfold k0_pay16
  refine (Cert.LibHitCount.hitCount_apply _ v26 _ _ _ _ _ _ _ _ p q).trans ?_
  refine Finset.sum_congr rfl fun e _ => ?_
  have hrow := Cert.LibHitCount.rowOf_apply v24 ![0, 9, 0] (9 : Fin 16) rfl slices_S1000x16x16_o0_9_0_S1000x1x16 shapeCasts_S1000x1x16_S1000x16 p e
  rw [hrow]

/-- Row 10. -/
theorem pay17_apply (v24 : IVec S1000x16x16 32) (v26 : IVec S1000x16 32) (p : Fin 1000) (q : Fin 16) :
    k0_pay17 (F := Ideal) v24 v26 (ix2 p q) = H v24 v26 p 10 q := by
  unfold k0_pay17
  refine (Cert.LibHitCount.hitCount_apply _ v26 _ _ _ _ _ _ _ _ p q).trans ?_
  refine Finset.sum_congr rfl fun e _ => ?_
  have hrow := Cert.LibHitCount.rowOf_apply v24 ![0, 10, 0] (10 : Fin 16) rfl slices_S1000x16x16_o0_10_0_S1000x1x16 shapeCasts_S1000x1x16_S1000x16 p e
  rw [hrow]

/-- Row 11. -/
theorem pay18_apply (v24 : IVec S1000x16x16 32) (v26 : IVec S1000x16 32) (p : Fin 1000) (q : Fin 16) :
    k0_pay18 (F := Ideal) v24 v26 (ix2 p q) = H v24 v26 p 11 q := by
  unfold k0_pay18
  refine (Cert.LibHitCount.hitCount_apply _ v26 _ _ _ _ _ _ _ _ p q).trans ?_
  refine Finset.sum_congr rfl fun e _ => ?_
  have hrow := Cert.LibHitCount.rowOf_apply v24 ![0, 11, 0] (11 : Fin 16) rfl slices_S1000x16x16_o0_11_0_S1000x1x16 shapeCasts_S1000x1x16_S1000x16 p e
  rw [hrow]

/-- Row 6 is compared in one piece of the body and counted in the next. -/
theorem pay12_apply (v24 : IVec S1000x16x16 32) (v26 : IVec S1000x16 32) (p : Fin 1000) (e q : Fin 16) :
    k0_pay12 v24 v26 (ix3 p e q) = IntOp.cmpi .eq (v24 (ix3 p 6 e)) (v26 (ix2 p q)) := by
  unfold k0_pay12
  refine (Cert.LibHitCount.compare_apply _ v26 _ _ _ _ p e q).trans ?_
  have hrow := Cert.LibHitCount.rowOf_apply v24 ![0, 6, 0] (6 : Fin 16) rfl slices_S1000x16x16_o0_6_0_S1000x1x16 shapeCasts_S1000x1x16_S1000x16 p e
  rw [hrow]

theorem pay13_apply (v24 : IVec S1000x16x16 32) (v26 : IVec S1000x16 32) (v93 : IVec S1000x16x16 1)
    (h93 : ∀ (p : Fin 1000) (e q : Fin 16), v93 (ix3 p e q) = IntOp.cmpi .eq (v24 (ix3 p 6 e)) (v26 (ix2 p q)))
    (p : Fin 1000) (q : Fin 16) :
    k0_pay13 (F := Ideal) v93 (ix2 p q) = H v24 v26 p 6 q := by
  unfold k0_pay13
  refine (Cert.LibHitCount.count_apply v93 _ _ _ _ p q).trans ?_
  refine Finset.sum_congr rfl fun e _ => ?_
  rw [h93 p e q]
  exact if_congr IntOp.cmpi_eq rfl rfl

/-- Row 12 is cut out, still with its unit middle axis, in one piece of the body and used in the next. -/
theorem pay19_apply (v24 : IVec S1000x16x16 32) (p : Fin 1000) (u : Fin 1) (e : Fin 16) :
    k0_pay19 v24 (ix3 p u e) = v24 (ix3 p 12 e) := by
  unfold k0_pay19
  exact RowOps.slice_row_apply v24 ![0, 12, 0] (12 : Fin 16) rfl slices_S1000x16x16_o0_12_0_S1000x1x16 p u e

set_option maxHeartbeats 1000000 in
/-- The stack of the sixteen counts, at (p, r, q): rows 0 to 11 arrive counted, rows 12 to 15 are counted here. -/
theorem pay20_apply (v24 : IVec S1000x16x16 32) (v26 : IVec S1000x16 32)
    (v36 v46 v56 v66 v76 v86 v96 v106 v116 v126 v136 v146 : FVec Ideal S1000x16 .f32) (v147 : IVec S1000x1x16 32)
    (h0 : ∀ (p : Fin 1000) (q : Fin 16), v36 (ix2 p q) = H v24 v26 p 0 q)
    (h1 : ∀ (p : Fin 1000) (q : Fin 16), v46 (ix2 p q) = H v24 v26 p 1 q)
    (h2 : ∀ (p : Fin 1000) (q : Fin 16), v56 (ix2 p q) = H v24 v26 p 2 q)
    (h3 : ∀ (p : Fin 1000) (q : Fin 16), v66 (ix2 p q) = H v24 v26 p 3 q)
    (h4 : ∀ (p : Fin 1000) (q : Fin 16), v76 (ix2 p q) = H v24 v26 p 4 q)
    (h5 : ∀ (p : Fin 1000) (q : Fin 16), v86 (ix2 p q) = H v24 v26 p 5 q)
    (h6 : ∀ (p : Fin 1000) (q : Fin 16), v96 (ix2 p q) = H v24 v26 p 6 q)
    (h7 : ∀ (p : Fin 1000) (q : Fin 16), v106 (ix2 p q) = H v24 v26 p 7 q)
    (h8 : ∀ (p : Fin 1000) (q : Fin 16), v116 (ix2 p q) = H v24 v26 p 8 q)
    (h9 : ∀ (p : Fin 1000) (q : Fin 16), v126 (ix2 p q) = H v24 v26 p 9 q)
    (h10 : ∀ (p : Fin 1000) (q : Fin 16), v136 (ix2 p q) = H v24 v26 p 10 q)
    (h11 : ∀ (p : Fin 1000) (q : Fin 16), v146 (ix2 p q) = H v24 v26 p 11 q)
    (h12 : ∀ (p : Fin 1000) (e : Fin 16), v147 (ix3 p (0 : Fin 1) e) = v24 (ix3 p 12 e))
    (p : Fin 1000) (r q : Fin 16) :
    k0_pay20 (F := Ideal) v24 v26 v36 v46 v56 v66 v76 v86 v96 v106 v116 v126 v136 v146 v147 (ix3 p r q) = H v24 v26 p r q := by
  unfold k0_pay20
  match r with
  | ⟨0, _⟩ =>
    refine Eq.trans (Cert.LibMiddleStack.stack16_at_0 _ _ _ _ _ _ _ _ _ _ _ _ _ _ _ _ _ p _ q) ?_
    refine Eq.trans (Keepdims.shapeCast_ac_a1c_apply _ _ p 0 q) ?_
    exact h0 p q
  | ⟨1, _⟩ =>
    refine Eq.trans (Cert.LibMiddleStack.stack16_at_1 _ _ _ _ _ _ _ _ _ _ _ _ _ _ _ _ _ p _ q) ?_
    refine Eq.trans (Keepdims.shapeCast_ac_a1c_apply _ _ p 0 q) ?_
    exact h1 p q
  | ⟨2, _⟩ =>
    refine Eq.trans (Cert.LibMiddleStack.stack16_at_2 _ _ _ _ _ _ _ _ _ _ _ _ _ _ _ _ _ p _ q) ?_
    refine Eq.trans (Keepdims.shapeCast_ac_a1c_apply _ _ p 0 q) ?_
    exact h2 p q
  | ⟨3, _⟩ =>
    refine Eq.trans (Cert.LibMiddleStack.stack16_at_3 _ _ _ _ _ _ _ _ _ _ _ _ _ _ _ _ _ p _ q) ?_
    refine Eq.trans (Keepdims.shapeCast_ac_a1c_apply _ _ p 0 q) ?_
    exact h3 p q
  | ⟨4, _⟩ =>
    refine Eq.trans (Cert.LibMiddleStack.stack16_at_4 _ _ _ _ _ _ _ _ _ _ _ _ _ _ _ _ _ p _ q) ?_
    refine Eq.trans (Keepdims.shapeCast_ac_a1c_apply _ _ p 0 q) ?_
    exact h4 p q
  | ⟨5, _⟩ =>
    refine Eq.trans (Cert.LibMiddleStack.stack16_at_5 _ _ _ _ _ _ _ _ _ _ _ _ _ _ _ _ _ p _ q) ?_
    refine Eq.trans (Keepdims.shapeCast_ac_a1c_apply _ _ p 0 q) ?_
    exact h5 p q
  | ⟨6, _⟩ =>
    refine Eq.trans (Cert.LibMiddleStack.stack16_at_6 _ _ _ _ _ _ _ _ _ _ _ _ _ _ _ _ _ p _ q) ?_
    refine Eq.trans (Keepdims.shapeCast_ac_a1c_apply _ _ p 0 q) ?_
    exact h6 p q
  | ⟨7, _⟩ =>
    refine Eq.trans (Cert.LibMiddleStack.stack16_at_7 _ _ _ _ _ _ _ _ _ _ _ _ _ _ _ _ _ p _ q) ?_
    refine Eq.trans (Keepdims.shapeCast_ac_a1c_apply _ _ p 0 q) ?_
    exact h7 p q
  | ⟨8, _⟩ =>
    refine Eq.trans (Cert.LibMiddleStack.stack16_at_8 _ _ _ _ _ _ _ _ _ _ _ _ _ _ _ _ _ p _ q) ?_
    refine Eq.trans (Keepdims.shapeCast_ac_a1c_apply _ _ p 0 q) ?_
    exact h8 p q
  | ⟨9, _⟩ =>
    refine Eq.trans (Cert.LibMiddleStack.stack16_at_9 _ _ _ _ _ _ _ _ _ _ _ _ _ _ _ _ _ p _ q) ?_
    refine Eq.trans (Keepdims.shapeCast_ac_a1c_apply _ _ p 0 q) ?_
    exact h9 p q
  | ⟨10, _⟩ =>
    refine Eq.trans (Cert.LibMiddleStack.stack16_at_10 _ _ _ _ _ _ _ _ _ _ _ _ _ _ _ _ _ p _ q) ?_
    refine Eq.trans (Keepdims.shapeCast_ac_a1c_apply _ _ p 0 q) ?_
    exact h10 p q
  | ⟨11, _⟩ =>
    refine Eq.trans (Cert.LibMiddleStack.stack16_at_11 _ _ _ _ _ _ _ _ _ _ _ _ _ _ _ _ _ p _ q) ?_
    refine Eq.trans (Keepdims.shapeCast_ac_a1c_apply _ _ p 0 q) ?_
    exact h11 p q
  | ⟨12, _⟩ =>
    refine Eq.trans (Cert.LibMiddleStack.stack16_at_12 _ _ _ _ _ _ _ _ _ _ _ _ _ _ _ _ _ p _ q) ?_
    refine Eq.trans (Keepdims.shapeCast_ac_a1c_apply _ _ p 0 q) ?_
    refine (Cert.LibHitCount.hitCount_apply _ v26 _ _ _ _ _ _ _ _ p q).trans ?_
    refine Finset.sum_congr rfl fun e _ => ?_
    have hrow := RowOps.shapeCast_a1c_ac_apply v147 shapeCasts_S1000x1x16_S1000x16 p e
    rw [hrow, h12 p e]
    rfl
  | ⟨13, _⟩ =>
    refine Eq.trans (Cert.LibMiddleStack.stack16_at_13 _ _ _ _ _ _ _ _ _ _ _ _ _ _ _ _ _ p _ q) ?_
    refine Eq.trans (Keepdims.shapeCast_ac_a1c_apply _ _ p 0 q) ?_
    refine (Cert.LibHitCount.hitCount_apply _ v26 _ _ _ _ _ _ _ _ p q).trans ?_
    refine Finset.sum_congr rfl fun e _ => ?_
    have hrow := Cert.LibHitCount.rowOf_apply v24 ![0, 13, 0] (13 : Fin 16) rfl slices_S1000x16x16_o0_13_0_S1000x1x16 shapeCasts_S1000x1x16_S1000x16 p e
    rw [hrow]
    rfl
  | ⟨14, _⟩ =>
    refine Eq.trans (Cert.LibMiddleStack.stack16_at_14 _ _ _ _ _ _ _ _ _ _ _ _ _ _ _ _ _ p _ q) ?_
    refine Eq.trans (Keepdims.shapeCast_ac_a1c_apply _ _ p 0 q) ?_
    refine (Cert.LibHitCount.hitCount_apply _ v26 _ _ _ _ _ _ _ _ p q).trans ?_
    refine Finset.sum_congr rfl fun e _ => ?_
    have hrow := Cert.LibHitCount.rowOf_apply v24 ![0, 14, 0] (14 : Fin 16) rfl slices_S1000x16x16_o0_14_0_S1000x1x16 shapeCasts_S1000x1x16_S1000x16 p e
    rw [hrow]
    rfl
  | ⟨15, _⟩ =>
    refine Eq.trans (Cert.LibMiddleStack.stack16_at_15 _ _ _ _ _ _ _ _ _ _ _ _ _ _ _ _ _ p _ q) ?_
    refine Eq.trans (Keepdims.shapeCast_ac_a1c_apply _ _ p 0 q) ?_
    refine (Cert.LibHitCount.hitCount_apply _ v26 _ _ _ _ _ _ _ _ p q).trans ?_
    refine Finset.sum_congr rfl fun e _ => ?_
    have hrow := Cert.LibHitCount.rowOf_apply v24 ![0, 15, 0] (15 : Fin 16) rfl slices_S1000x16x16_o0_15_0_S1000x1x16 shapeCasts_S1000x1x16_S1000x16 p e
    rw [hrow]
    rfl
  | ⟨n + 16, hn⟩ => exact absurd hn (by omega)

/-- The stack as the body assembles it from the two loaded id blocks, at (p, r, q). -/
theorem counts_apply (x1 : IVec S1000x16x16 32) (x2 : IVec S1000x16 32) (p : Fin 1000) (r q : Fin 16) :
    k0_pay20 (F := Ideal) (k0_pay3 (F := Ideal) x1) (k0_pay4 (F := Ideal) x2) (k0_pay5 (F := Ideal) x1 x2)
      (k0_pay7 (F := Ideal) (k0_pay4 (F := Ideal) x2) (k0_pay6 (F := Ideal) x1))
      (k0_pay8 (F := Ideal) (k0_pay3 (F := Ideal) x1) (k0_pay4 (F := Ideal) x2))
      (k0_pay9 (F := Ideal) (k0_pay3 (F := Ideal) x1) (k0_pay4 (F := Ideal) x2))
      (k0_pay10 (F := Ideal) (k0_pay3 (F := Ideal) x1) (k0_pay4 (F := Ideal) x2))
      (k0_pay11 (F := Ideal) (k0_pay3 (F := Ideal) x1) (k0_pay4 (F := Ideal) x2))
      (k0_pay13 (F := Ideal) (k0_pay12 (k0_pay3 (F := Ideal) x1) (k0_pay4 (F := Ideal) x2)))
      (k0_pay14 (F := Ideal) (k0_pay3 (F := Ideal) x1) (k0_pay4 (F := Ideal) x2))
      (k0_pay15 (F := Ideal) (k0_pay3 (F := Ideal) x1) (k0_pay4 (F := Ideal) x2))
      (k0_pay16 (F := Ideal) (k0_pay3 (F := Ideal) x1) (k0_pay4 (F := Ideal) x2))
      (k0_pay17 (F := Ideal) (k0_pay3 (F := Ideal) x1) (k0_pay4 (F := Ideal) x2))
      (k0_pay18 (F := Ideal) (k0_pay3 (F := Ideal) x1) (k0_pay4 (F := Ideal) x2))
      (k0_pay19 (k0_pay3 (F := Ideal) x1)) (ix3 p r q)
      = H x1 x2 p r q := by
  rw [pay3_eq, pay4_eq]
  exact pay20_apply x1 x2 _ _ _ _ _ _ _ _ _ _ _ _ _
    (pay5_apply x1 x2) (pay7_apply x1 x2 _ (pay6_apply x1)) (pay8_apply x1 x2) (pay9_apply x1 x2) (pay10_apply x1 x2)
    (pay11_apply x1 x2) (pay13_apply x1 x2 _ (pay12_apply x1 x2)) (pay14_apply x1 x2) (pay15_apply x1 x2)
    (pay16_apply x1 x2) (pay17_apply x1 x2) (pay18_apply x1 x2) (fun p e => pay19_apply x1 p 0 e) p r q

end Cert.KernelIdeal.Counts

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibTransposedProduct.lean ====
/-
  A matrix product whose right factor is given by its rows, for any extents a, k, b on the extended reals.

  The right factor arrives as a `[b, k]` matrix and is transposed to `[k, b]` before a plain product
  `[a, k] × [k, b] → [a, b]` (the left operand's last axis contracted with the right operand's first) into a zero
  accumulator. Entry `(i, j)` of the result is then the sum over `e : Fin k` of `lhs (i, e) * rhs (j, e)`: row `i` of
  the left factor against row `j` of the untransposed right factor. A change of float format on the way in is the
  identity on the extended reals, so the factors may be of any float formats.
-/
import proofs.«157226_j10977936409018_1_alg».proof.Proof.LibRowMax

noncomputable section

namespace Cert.LibTransposedProduct

open Idealize.ShloMosaic Idealize.ShloMosaic.ValueIdx

variable {a k b : ℕ}

/-- The product of `lhs : [a, k]` with the transpose of `rhs : [b, k]`, into a zero accumulator, at `(i, j)`: the sum
    over `e` of `lhs (i, e) * rhs (j, e)`. -/
theorem matmul_transposed_apply {φ₁ φ₂ : FTy}
    (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![b, k]⟩ φ₂)
    (ht : (⟨2, ![b, k]⟩ : Shape).Transposes [1, 0] ⟨2, ![k, b]⟩) (i : Fin a) (j : Fin b) :
    FloatOps.matmul (Cert.LibRowMax.plainDims a k b wf) prec lhs (transpose ⟨2, ![k, b]⟩ [1, 0] rhs ht)
        (constant ⟨2, ![a, b]⟩ .f32 0x00000000#32) (ix2 i j)
      = ∑ e : Fin k, lhs (ix2 i e) * rhs (ix2 j e) :=
  (Cert.LibRowMax.matmul_plain_apply wf prec lhs (transpose ⟨2, ![k, b]⟩ [1, 0] rhs ht) i j).trans
    (Finset.sum_congr rfl fun e _ => congrArg (lhs (ix2 i e) * ·) (transpose_ix2_apply rhs ht e j))

end Cert.LibTransposedProduct

end
-- ==== Proof.KernelFeature.lean ====
/-
  The feature term of the kernel body, read at an entry.

  From the [1000, 16, 128] block of gathered feature rows the body takes, per node, the sum of squares over the features
  and then over the sixteen neighbours, divided by 16; and per node and feature the sum over the neighbours divided by 16.
  The first is made a column and spread over the sixteen templates, the template's mean squared norm (a [1, 16] row) is
  spread down the nodes and added; the second is multiplied with the transposed [16, 128] matrix of mean template rows,
  so entry (p, q) of the product pairs node p's mean feature row with template q's mean row; twice the product is
  subtracted.  Entry (p, q) is therefore the feature term of node p's feature rows against template q.
-/
import proofs.«157226_j10977936409018_1_alg».proof.Proof.Gen.KernelIdeal.Skeleton
import proofs.«157226_j10977936409018_1_alg».proof.Proof.LibKeepdims
import proofs.«157226_j10977936409018_1_alg».proof.Proof.LibColumn
import proofs.«157226_j10977936409018_1_alg».proof.Proof.LibTransposedProduct
import proofs.«157226_j10977936409018_1_alg».proof.Proof.TemplateDistance
import Idealize.ShloMosaic.Lib.ValueLayout

noncomputable section

namespace Cert.KernelIdeal.Feature

open Idealize.ShloMosaic Idealize.ShloMosaic.ValueIdx Cert.KernelIdeal Cert.KernelIdeal.Gen Cert.TemplateDistance

theorem pay2_apply (v0 : FVec Ideal S1000x16x128 .f32) (v11 : FVec Ideal S1x16 .f32) (v16 : FVec Ideal S16x128 .f32)
    (p : Fin 1000) (q : Fin 16) :
    k0_pay2 (F := Ideal) v0 v11 v16 (ix2 p q)
      = featTerm (fun r k => v0 (ix3 p r k)) (v11 (ix2 (0 : Fin 1) q)) (fun k => v16 (ix2 q k)) := by
  unfold k0_pay2 featTerm sqMean featMean
  rw [subf_apply, addf_apply, mulf_apply]
  refine congrArg₂ (· - ·) (congrArg₂ (· + ·) ?_ ?_) (congrArg₂ (· * ·) rfl ?_)
  · -- the mean squared norm, as a column spread over the templates
    refine (Cert.LibColumn.broadcastTo_a1_ab_apply _ _ p q).trans ?_
    refine (Cert.LibColumn.shapeCast_a_a1_apply _ _ p 0).trans ?_
    rw [divf_apply]
    refine congrArg₂ Ideal.div ?_ rfl
    refine (Cert.LibColumn.sum_last_apply _ _ _ _ p).trans ?_
    refine Finset.sum_congr rfl fun r _ => ?_
    refine (Keepdims.multiReduction_add_last _ _ _ _ _ p r).trans ?_
    refine Finset.sum_congr rfl fun k _ => ?_
    rw [mulf_apply, shapeCast_self]
  · -- the template's mean squared norm, spread down the nodes
    rw [shapeCast_self]
    exact broadcastTo_1b_ab_apply v11 _ p q
  · -- the product of the mean feature rows with the transposed mean template rows
    refine (Cert.LibTransposedProduct.matmul_transposed_apply _ none _ _ _ p q).trans ?_
    refine Finset.sum_congr rfl fun k _ => ?_
    refine congrArg₂ (· * ·) ?_ ?_
    · rw [divf_apply]
      refine congrArg₂ Ideal.div ?_ rfl
      refine (Keepdims.multiReduction_add_middle _ _ _ _ _ p k).trans ?_
      refine Finset.sum_congr rfl fun r _ => ?_
      rw [shapeCast_self]
    · rw [shapeCast_self]

end Cert.KernelIdeal.Feature

end
-- ==== Proof.LibPairSum.lean ====
/-
  Summing a rank-3 array over its two trailing axes, for any extents a × b × c, on the extended reals.

  Both the vector unit's and the host's sum over the axes [1, 2] of an [a, b, c] array are defined as a sum over those
  indices of the array whose first coordinate is the reduced index.  Those indices are the triples (p, j, k) with j and k
  free, so the sum is the double sum over j and k of the entries (p, j, k) — the host's with its initial value in front.
-/
import Idealize.ShloMosaic.PureOps.Ideal.Laws
import Idealize.ShloMosaic.Lib.ValueIdx

noncomputable section

namespace Cert.LibPairSum

open Idealize.ShloMosaic Idealize.ShloMosaic.ValueIdx

variable {a b c : ℕ}

/-- A sum over the indices of an [a, b, c] array that a map `drop` sends to row `p`, when `drop` keeps exactly the
    first coordinate: the double sum over the two other coordinates. -/
theorem sum_filter_row {M : Type*} [AddCommMonoid M] (x : (⟨3, ![a, b, c]⟩ : Shape).Idx → M)
    (drop : (⟨3, ![a, b, c]⟩ : Shape).Idx → (⟨1, ![a]⟩ : Shape).Idx) (p : Fin a) [DecidablePred fun i => drop i = ix1 p]
    (hdrop : ∀ i, (drop i 0).val = (i 0).val) :
    ∑ i ∈ Finset.univ.filter (fun i => drop i = ix1 p), x i = ∑ j : Fin b, ∑ k : Fin c, x (ix3 p j k) := by
  rw [← Finset.sum_product']
  refine Finset.sum_bij' (fun i _ => ((i 1 : Fin b), (i 2 : Fin c))) (fun q _ => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    funext d
    match d with
    | ⟨0, _⟩ => exact Fin.ext (hdrop _)
  · intro i hi
    have h0 : drop i = ix1 p := (Finset.mem_filter.1 hi).2
    have h1 : (i 0).val = p.val := by rw [← hdrop i, h0]; rfl
    funext d
    apply Fin.ext
    match d with
    | ⟨0, _⟩ => exact h1.symm
    | ⟨1, _⟩ => rfl
    | ⟨2, _⟩ => rfl
  · intro q _; rfl
  · intro i hi
    have h0 : drop i = ix1 p := (Finset.mem_filter.1 hi).2
    have h1 : (i 0).val = p.val := by rw [← hdrop i, h0]; rfl
    refine congrArg x (funext fun d => Fin.ext ?_)
    match d with
    | ⟨0, _⟩ => exact h1
    | ⟨1, _⟩ => rfl
    | ⟨2, _⟩ => rfl

variable {φ : FTy}

/-- The vector unit's sum over the two trailing axes, at row `p`: the double sum over `j` and `k`. -/
theorem multiReduction_add_pair (src : FVec Ideal ⟨3, ![a, b, c]⟩ φ) (acc : BitVec φ.bits)
    (h : (⟨3, ![a, b, c]⟩ : Shape).Reduces [1, 2] ⟨1, ![a]⟩) (hφ : FKind.Formats φ) (hacc : acc = FKind.add.neutral φ hφ)
    (p : Fin a) :
    multiReduction .add [1, 2] ⟨1, ![a]⟩ src acc h hφ hacc (ix1 p) = ∑ j : Fin b, ∑ k : Fin c, src (ix3 p j k) := by
  show Ideal.reduceAdd h src (ix1 p) = _
  unfold Ideal.reduceAdd
  exact sum_filter_row src h.drop p (fun _ => rfl)

/-- The host's sum over the two trailing axes, at row `p`: its initial value plus the double sum over `j` and `k`. -/
theorem hostReduceAdd_pair {u : Shape} (x : FVec Ideal ⟨3, ![a, b, c]⟩ φ) (init : u.Idx → Ideal φ)
    (h' : (⟨3, ![a, b, c]⟩ : Shape).ReducesTo [1, 2] ⟨1, ![a]⟩) (hu : 0 < u.numel) (p : Fin a) :
    Host.reduceAdd x init h' hu (ix1 p) = init (Shape.Idx.first hu) + ∑ j : Fin b, ∑ k : Fin c, x (ix3 p j k) := by
  simp only [Host.reduceAdd, Ideal.hostReduceAdd_def]
  unfold Ideal.hostReduceAdd
  exact congrArg (_ + ·) (sum_filter_row x h'.drop p (fun _ => rfl))

end Cert.LibPairSum

end
-- ==== Proof.KernelCombine.lean ====
/-
  The last piece of the kernel body, and the body's value at an entry.

  From the stacked counts the body forms the induced adjacency — 1 where a count is positive — takes its mean over the
  256 entries per node (the density), and combines: density + mct2 − (2·density)·mct is the structure term, and the
  stored value is half the feature term plus half the structure term.  With the counts read as numbers of hits, "the count
  is positive" is "there is a hit", so entry (p, q) of the stored block is `distance` of node p's row data against
  template q's four numbers.
-/
import proofs.«157226_j10977936409018_1_alg».proof.Proof.KernelCounts
import proofs.«157226_j10977936409018_1_alg».proof.Proof.KernelFeature
import proofs.«157226_j10977936409018_1_alg».proof.Proof.LibPairSum

noncomputable section

namespace Cert.KernelIdeal.Combine

open Idealize.ShloMosaic Idealize.ShloMosaic.ValueIdx Cert.KernelIdeal Cert.KernelIdeal.Gen Cert.TemplateDistance

/-- The density column of the body, at node p: the mean over (r, s) of "count (p, r, s) is positive". -/
theorem density_apply (v203 : FVec Ideal S1000x16x16 .f32) (hlt : 1 < 32)
    (hr : S1000x16x16.Reduces [1, 2] S1000) (hφ : FKind.Formats .f32)
    (hacc : (0x00000000#32 : BitVec 32) = FKind.add.neutral .f32 hφ) (p : Fin 1000) :
    divf (multiReduction .add [1, 2] S1000
        (sitofp (F := Ideal) .f32 (extui 32 (cmpf .ogt v203 (broadcast S1000x16x16 (Scalar.ofBits (F := Ideal) .f32 0x00000000#32))) hlt))
        0x00000000#32 hr hφ hacc) (broadcast S1000 (Scalar.ofBits (F := Ideal) .f32 0x43800000#32)) (ix1 p)
      = Ideal.div (∑ r : Fin 16, ∑ s : Fin 16, if (0 : EReal) < v203 (ix3 p r s) then (1 : EReal) else 0) c256 := by
  rw [divf_apply]
  refine congrArg₂ Ideal.div ?_ rfl
  refine (Cert.LibPairSum.multiReduction_add_pair _ _ _ _ _ p).trans ?_
  refine Finset.sum_congr rfl fun r _ => Finset.sum_congr rfl fun s _ => ?_
  refine (Cert.LibIndicator.sitofp_extui_bit _).trans ?_
  refine if_congr ?_ rfl rfl
  refine (Cert.LibIndicator.cmpf_ogt_eq_one _ _).trans ?_
  show Ideal.ofBits .f32 0x00000000#32 < v203 (ix3 p r s) ↔ _
  rw [Ideal.ofBits_zero_f32]

/-- The stored value at (p, q), from the feature term's block, the stacked counts and the two template rows. -/
theorem pay1_apply (v22 : FVec Ideal S1000x16 .f32) (v203 : FVec Ideal S1000x16x16 .f32) (v212 v220 : FVec Ideal S1x16 .f32)
    (p : Fin 1000) (q : Fin 16) :
    k0_pay1 (F := Ideal) v22 v203 v212 v220 (ix2 p q)
      = cHalf * v22 (ix2 p q) + cHalf * structTerm
          (Ideal.div (∑ r : Fin 16, ∑ s : Fin 16, if (0 : EReal) < v203 (ix3 p r s) then (1 : EReal) else 0) c256)
          (v220 (ix2 (0 : Fin 1) q)) (v212 (ix2 (0 : Fin 1) q)) := by
  unfold k0_pay1 structTerm
  rw [addf_apply, mulf_apply, mulf_apply, subf_apply, addf_apply, mulf_apply]
  refine congrArg₂ (· + ·) rfl (congrArg₂ (· * ·) rfl (congrArg₂ (· - ·) (congrArg₂ (· + ·) ?_ ?_) (congrArg₂ (· * ·) ?_ ?_)))
  · refine (Cert.LibColumn.broadcastTo_a1_ab_apply _ _ p q).trans ?_
    refine (Cert.LibColumn.shapeCast_a_a1_apply _ _ p 0).trans ?_
    exact density_apply v203 _ _ _ _ p
  · rw [shapeCast_self]
    exact broadcastTo_1b_ab_apply v212 _ p q
  · refine (Cert.LibColumn.broadcastTo_a1_ab_apply _ _ p q).trans ?_
    rw [mulf_apply]
    refine congrArg₂ (· * ·) rfl ?_
    refine (Cert.LibColumn.shapeCast_a_a1_apply _ _ p 0).trans ?_
    exact density_apply v203 _ _ _ _ p
  · rw [shapeCast_self]
    exact broadcastTo_1b_ab_apply v220 _ p q

/-- The body's stored value at (p, q), as a function of the seven loaded blocks: the distance of node p's row data to
    template q. -/
theorem body_apply (x0 : FVec Ideal S1000x16x128 .f32) (x1 : IVec S1000x16x16 32) (x2 : IVec S1000x16 32)
    (x3 : FVec Ideal S1x16 .f32) (x4 : FVec Ideal S16x128 .f32) (x5 x6 : FVec Ideal S1x16 .f32) (p : Fin 1000) (q : Fin 16) :
    k0_pay1 (F := Ideal) (k0_pay2 (F := Ideal) x0 x3 x4)
      (k0_pay20 (F := Ideal) (k0_pay3 (F := Ideal) x1) (k0_pay4 (F := Ideal) x2) (k0_pay5 (F := Ideal) x1 x2)
        (k0_pay7 (F := Ideal) (k0_pay4 (F := Ideal) x2) (k0_pay6 (F := Ideal) x1))
        (k0_pay8 (F := Ideal) (k0_pay3 (F := Ideal) x1) (k0_pay4 (F := Ideal) x2))
        (k0_pay9 (F := Ideal) (k0_pay3 (F := Ideal) x1) (k0_pay4 (F := Ideal) x2))
        (k0_pay10 (F := Ideal) (k0_pay3 (F := Ideal) x1) (k0_pay4 (F := Ideal) x2))
        (k0_pay11 (F := Ideal) (k0_pay3 (F := Ideal) x1) (k0_pay4 (F := Ideal) x2))
        (k0_pay13 (F := Ideal) (k0_pay12 (k0_pay3 (F := Ideal) x1) (k0_pay4 (F := Ideal) x2)))
        (k0_pay14 (F := Ideal) (k0_pay3 (F := Ideal) x1) (k0_pay4 (F := Ideal) x2))
        (k0_pay15 (F := Ideal) (k0_pay3 (F := Ideal) x1) (k0_pay4 (F := Ideal) x2))
        (k0_pay16 (F := Ideal) (k0_pay3 (F := Ideal) x1) (k0_pay4 (F := Ideal) x2))
        (k0_pay17 (F := Ideal) (k0_pay3 (F := Ideal) x1) (k0_pay4 (F := Ideal) x2))
        (k0_pay18 (F := Ideal) (k0_pay3 (F := Ideal) x1) (k0_pay4 (F := Ideal) x2))
        (k0_pay19 (k0_pay3 (F := Ideal) x1))) x6 x5 (ix2 p q)
      = distance (fun r k => x0 (ix3 p r k)) (fun r e => x1 (ix3 p r e)) (fun b => x2 (ix2 p b))
          (x3 (ix2 (0 : Fin 1) q)) (fun k => x4 (ix2 q k)) (x5 (ix2 (0 : Fin 1) q)) (x6 (ix2 (0 : Fin 1) q)) := by
  refine (pay1_apply _ _ x6 x5 p q).trans ?_
  unfold distance density
  refine congrArg₂ (· + ·) (congrArg (cHalf * ·) (Cert.KernelIdeal.Feature.pay2_apply x0 x3 x4 p q)) ?_
  refine congrArg (cHalf * ·) (congrArg (structTerm · _ _) (congrArg (Ideal.div · c256) ?_))
  refine Finset.sum_congr rfl fun r _ => Finset.sum_congr rfl fun s _ => ?_
  rw [Cert.KernelIdeal.Counts.counts_apply x1 x2 p r s]
  exact pos_hits_eq_adj _ _ r s

end Cert.KernelIdeal.Combine

end
-- ==== Proof.HostPrefix.lean ====
/-
  What the kernel's region finds in its seven input arrays.

  Before the region, the kernel's program computes on the host, from the same four arguments and by the same operations as
  the reference program: the gathered feature rows, the neighbours' neighbour ids, the neighbour ids, and the four template
  statistics (three of them then reshaped from [16] to a [1, 16] row).  So each array the region finds is the reference's
  stage of the same name, as a function of the arguments — nothing here reads a gather.
-/
import proofs.«157226_j10977936409018_1_alg».proof.Proof.Gen.KernelIdeal.Frame
import proofs.«157226_j10977936409018_1_alg».proof.Proof.Gen.ReferenceIdeal.Read
import Idealize.ShloMosaic.Lib.StableHlo.Run

noncomputable section

namespace Cert.KernelIdeal.HostPrefix

open Idealize.ShloMosaic Idealize.SL.Sem Idealize.ShloMosaic.StableHlo Cert.KernelIdeal Cert.KernelIdeal.Gen

variable (m : (ℓ : Loc nD τ sig) → Buf (Elt Ideal) ℓ)

/-- The gathered feature rows. -/
theorem V_features (c : Dev nD) :
    (V m c main_v9 : S50000x16x128.Idx → EReal)
      = Cert.ReferenceIdeal.Read.val_main_v9 (F := Ideal) (m ((c.tc : Thread nD τ).loc main_arg0)) (m ((c.tc : Thread nD τ).loc main_arg1)) := by
  dsimp only [V, hostOps0]
  after_results_simp
  rfl

/-- The neighbours' neighbour ids. -/
theorem V_non (c : Dev nD) :
    (V m c main_v16 : S50000x16x16.Idx → BitVec 32)
      = Cert.ReferenceIdeal.Read.val_main_v42 (F := Ideal) (m ((c.tc : Thread nD τ).loc main_arg1)) := by
  dsimp only [V, hostOps0]
  after_results_simp
  rfl

/-- The neighbour ids. -/
theorem V_nbrs (c : Dev nD) :
    (V m c main_v2 : S50000x16.Idx → BitVec 32)
      = Cert.ReferenceIdeal.Read.val_main_v2 (F := Ideal) (m ((c.tc : Thread nD τ).loc main_arg1)) := by
  dsimp only [V, hostOps0]
  after_results_simp
  rfl

/-- The templates' mean squared norms, as a row. -/
theorem V_tsq (c : Dev nD) :
    (V m c main_v22 : S1x16.Idx → EReal)
      = shapeCast S1x16 (Cert.ReferenceIdeal.Read.val_main_v22 (F := Ideal) (m ((c.tc : Thread nD τ).loc main_arg3))) shapeCasts_S16_S1x16 := by
  dsimp only [V, hostOps0]
  after_results_simp
  rfl

/-- The templates' mean feature rows. -/
theorem V_tmean (c : Dev nD) :
    (V m c main_v25 : S16x128.Idx → EReal)
      = Cert.ReferenceIdeal.Read.val_main_v25 (F := Ideal) (m ((c.tc : Thread nD τ).loc main_arg3)) := by
  dsimp only [V, hostOps0]
  after_results_simp
  rfl

/-- The means of the templates' structure matrices, as a row. -/
theorem V_mct (c : Dev nD) :
    (V m c main_v29 : S1x16.Idx → EReal)
      = shapeCast S1x16 (Cert.ReferenceIdeal.Read.val_main_v55 (F := Ideal) (m ((c.tc : Thread nD τ).loc main_arg2))) shapeCasts_S16_S1x16 := by
  dsimp only [V, hostOps0]
  after_results_simp
  rfl

/-- The means of the squares of the templates' structure matrices, as a row. -/
theorem V_mct2 (c : Dev nD) :
    (V m c main_v34 : S1x16.Idx → EReal)
      = shapeCast S1x16 (Cert.ReferenceIdeal.Read.val_main_v59 (F := Ideal) (m ((c.tc : Thread nD τ).loc main_arg2))) shapeCasts_S16_S1x16 := by
  dsimp only [V, hostOps0]
  after_results_simp
  rfl

end Cert.KernelIdeal.HostPrefix

end
-- ==== Proof.Blocks.lean ====
/-
  From the kernel's blocks to its output array.

  The grid has fifty points; point t stages rows 1000·t … 1000·t + 999 of the three per-node arrays, the four template
  arrays whole, and writes back rows 1000·t … 1000·t + 999 of the [50000, 16] output.  What it writes back at (p, q) is
  the distance of node 1000·t + p's row data to template q, so the block written back is that block of ONE function G of
  the arrays the region finds: G (n, t) is the distance of node n's row data to template t.  Every row n lies in the
  block of point n / 1000, so the fifty blocks cover the output and the array after the run is G.  Last, the arrays the
  region finds are the reference's stages of the arguments, which turns G into a function of the arguments.
-/
import proofs.«157226_j10977936409018_1_alg».proof.Proof.Gen.KernelIdeal.Value
import proofs.«157226_j10977936409018_1_alg».proof.Proof.KernelCombine
import proofs.«157226_j10977936409018_1_alg».proof.Proof.HostPrefix
import Idealize.ShloMosaic.Lib.ValueLayout

noncomputable section

namespace Cert.KernelIdeal.Blocks

open Idealize.ShloMosaic Idealize.ShloMosaic.TcCoe Idealize.SL.Sem Idealize.ShloMosaic.ValueIdx
open Cert.KernelIdeal Cert.KernelIdeal.Gen Cert.TemplateDistance
open Idealize.ShloMosaic.Pipeline (Dat)

variable (m : (ℓ : Loc nD τ sig) → Buf (Elt Ideal) ℓ) (ρ : Dev nD → PrngReg)

/-- The distance of node n's row data to template t, over the arrays the region finds. -/
def Gat (c : Dev nD) (n : Fin 50000) (t : Fin 16) : EReal :=
  distance (fun r k => (V m c main_v9 : S50000x16x128.Idx → EReal) (ix3 n r k)) (fun r e => (V m c main_v16 : S50000x16x16.Idx → BitVec 32) (ix3 n r e))
    (fun b => (V m c main_v2 : S50000x16.Idx → BitVec 32) (ix2 n b)) ((V m c main_v22 : S1x16.Idx → EReal) (ix2 (0 : Fin 1) t))
    (fun k => (V m c main_v25 : S16x128.Idx → EReal) (ix2 t k)) ((V m c main_v29 : S1x16.Idx → EReal) (ix2 (0 : Fin 1) t))
    ((V m c main_v34 : S1x16.Idx → EReal) (ix2 (0 : Fin 1) t))

/-- The output array as one function of the arrays the region finds. -/
def G (c : Dev nD) : S50000x16.Idx → EReal := fun i => Gat m c (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store covers its buffer, and its loads read whole blocks: the buffer after the body is the payload
    of the loaded blocks. -/
theorem out_eq (x0 : Vec Ideal S1000x16x128 .f32) (x1 : Vec Ideal S1000x16x16 .i32) (x2 : Vec Ideal S1000x16 .i32)
    (x3 : Vec Ideal S1x16 .f32) (x4 : Vec Ideal S16x128 .f32) (x5 x6 : Vec Ideal S1x16 .f32) :
    out0_7 (F := Ideal) x0 x1 x2 x3 x4 x5 x6 = k0_pay1 (F := Ideal) (k0_pay2 (F := Ideal) x0 x3 x4)
      (k0_pay20 (F := Ideal) (k0_pay3 (F := Ideal) x1) (k0_pay4 (F := Ideal) x2) (k0_pay5 (F := Ideal) x1 x2)
        (k0_pay7 (F := Ideal) (k0_pay4 (F := Ideal) x2) (k0_pay6 (F := Ideal) x1))
        (k0_pay8 (F := Ideal) (k0_pay3 (F := Ideal) x1) (k0_pay4 (F := Ideal) x2))
        (k0_pay9 (F := Ideal) (k0_pay3 (F := Ideal) x1) (k0_pay4 (F := Ideal) x2))
        (k0_pay10 (F := Ideal) (k0_pay3 (F := Ideal) x1) (k0_pay4 (F := Ideal) x2))
        (k0_pay11 (F := Ideal) (k0_pay3 (F := Ideal) x1) (k0_pay4 (F := Ideal) x2))
        (k0_pay13 (F := Ideal) (k0_pay12 (k0_pay3 (F := Ideal) x1) (k0_pay4 (F := Ideal) x2)))
        (k0_pay14 (F := Ideal) (k0_pay3 (F := Ideal) x1) (k0_pay4 (F := Ideal) x2))
        (k0_pay15 (F := Ideal) (k0_pay3 (F := Ideal) x1) (k0_pay4 (F := Ideal) x2))
        (k0_pay16 (F := Ideal) (k0_pay3 (F := Ideal) x1) (k0_pay4 (F := Ideal) x2))
        (k0_pay17 (F := Ideal) (k0_pay3 (F := Ideal) x1) (k0_pay4 (F := Ideal) x2))
        (k0_pay18 (F := Ideal) (k0_pay3 (F := Ideal) x1) (k0_pay4 (F := Ideal) x2))
        (k0_pay19 (k0_pay3 (F := Ideal) x1))) x6 x5 := by
  unfold out0_7
  rw [View.canon_unit_zero hz2]
  simp only [View.ld_unit_zero (S := S1000x16x128) hz3, View.ld_unit_zero (S := S1x16) hz2, View.ld_unit_zero (S := S16x128) hz2,
    View.ld_unit_zero (S := S1000x16x16) hz3, View.ld_unit_zero (S := S1000x16) hz2]

/-- The printed index maps, decided over the fifty points: the per-node windows and the output move with the point, the
    template windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The distance depends on its seven arguments only. -/
theorem distance_congr {f f' : Fin 16 → Fin 128 → EReal} {non non' : Fin 16 → Fin 16 → BitVec 32} {nb nb' : Fin 16 → BitVec 32}
    {tsq tsq' : EReal} {tmean tmean' : Fin 128 → EReal} {mct mct' mct2 mct2' : EReal}
    (h0 : f = f') (h1 : non = non') (h2 : nb = nb') (h3 : tsq = tsq') (h4 : tmean = tmean') (h5 : mct = mct') (h6 : mct2 = mct2') :
    distance f non nb tsq tmean mct mct2 = distance f' non' nb' tsq' tmean' mct' mct2' := by
  subst h0 h1 h2 h3 h4 h5 h6; rfl

/-- Window 0's block at point t holds rows 1000·t … of the gathered feature rows. -/
theorem blk_features (c : Dev nD) (t : Fin cfg0.N) (p : Fin 1000) (r : Fin 16) (k : Fin 128) (n : Fin 50000) (hn : n.val = win0_7.index t (0 : Fin 2) * 1000 + 1 * p.val) :
    iblk m c 0 t (ix3 p r k) = (V m c main_v9 : S50000x16x128.Idx → EReal) (ix3 n r k) := by
  obtain ⟨a00, a01, a02, a10, a11, a12, a20, a21, a30, a31, a40, a41, a50, a51, a60, a61, a70, a71⟩ := idx_facts t
  show (V m c main_v9 : S50000x16x128.Idx → EReal) (((cfg0.win 0).blk t).view.emb (ix3 p r k)) = _
  refine congrArg _ (funext fun a => Fin.ext ?_)
  match a with
  | ⟨0, _⟩ => show win0_0.index t (0 : Fin 3) * 1000 + 1 * p.val = n.val; omega
  | ⟨1, _⟩ => show win0_0.index t (1 : Fin 3) * 16 + 1 * r.val = r.val; omega
  | ⟨2, _⟩ => show win0_0.index t (2 : Fin 3) * 128 + 1 * k.val = k.val; omega

/-- Window 1's block at point t holds the same rows of the neighbours' neighbour ids. -/
theorem blk_non (c : Dev nD) (t : Fin cfg0.N) (p : Fin 1000) (r e : Fin 16) (n : Fin 50000) (hn : n.val = win0_7.index t (0 : Fin 2) * 1000 + 1 * p.val) :
    iblk m c 1 t (ix3 p r e) = (V m c main_v16 : S50000x16x16.Idx → BitVec 32) (ix3 n r e) := by
  obtain ⟨a00, a01, a02, a10, a11, a12, a20, a21, a30, a31, a40, a41, a50, a51, a60, a61, a70, a71⟩ := idx_facts t
  show (V m c main_v16 : S50000x16x16.Idx → BitVec 32) (((cfg0.win 1).blk t).view.emb (ix3 p r e)) = _
  refine congrArg _ (funext fun a => Fin.ext ?_)
  match a with
  | ⟨0, _⟩ => show win0_1.index t (0 : Fin 3) * 1000 + 1 * p.val = n.val; omega
  | ⟨1, _⟩ => show win0_1.index t (1 : Fin 3) * 16 + 1 * r.val = r.val; omega
  | ⟨2, _⟩ => show win0_1.index t (2 : Fin 3) * 16 + 1 * e.val = e.val; omega

/-- Window 2's block at point t holds the same rows of the neighbour ids. -/
theorem blk_nbrs (c : Dev nD) (t : Fin cfg0.N) (p : Fin 1000) (b : Fin 16) (n : Fin 50000) (hn : n.val = win0_7.index t (0 : Fin 2) * 1000 + 1 * p.val) :
    iblk m c 2 t (ix2 p b) = (V m c main_v2 : S50000x16.Idx → BitVec 32) (ix2 n b) := by
  obtain ⟨a00, a01, a02, a10, a11, a12, a20, a21, a30, a31, a40, a41, a50, a51, a60, a61, a70, a71⟩ := idx_facts t
  show (V m c main_v2 : S50000x16.Idx → BitVec 32) (((cfg0.win 2).blk t).view.emb (ix2 p b)) = _
  refine congrArg _ (funext fun a => Fin.ext ?_)
  match a with
  | ⟨0, _⟩ => show win0_2.index t (0 : Fin 2) * 1000 + 1 * p.val = n.val; omega
  | ⟨1, _⟩ => show win0_2.index t (1 : Fin 2) * 16 + 1 * b.val = b.val; omega

/-- Window 3's block is the whole row of mean squared norms, at every point. -/
theorem blk_tsq (c : Dev nD) (t : Fin cfg0.N) (q : Fin 16) (s : Fin 16) (hs : s.val = win0_7.index t (1 : Fin 2) * 16 + 1 * q.val) :
    iblk m c 3 t (ix2 (0 : Fin 1) q) = (V m c main_v22 : S1x16.Idx → EReal) (ix2 (0 : Fin 1) s) := by
  obtain ⟨a00, a01, a02, a10, a11, a12, a20, a21, a30, a31, a40, a41, a50, a51, a60, a61, a70, a71⟩ := idx_facts t
  show (V m c main_v22 : S1x16.Idx → EReal) (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 16 + 1 * q.val = s.val; omega

/-- Window 4's block is the whole matrix of mean template rows, at every point. -/
theorem blk_tmean (c : Dev nD) (t : Fin cfg0.N) (q : Fin 16) (k : Fin 128) (s : Fin 16) (hs : s.val = win0_7.index t (1 : Fin 2) * 16 + 1 * q.val) :
    iblk m c 4 t (ix2 q k) = (V m c main_v25 : S16x128.Idx → EReal) (ix2 s k) := by
  obtain ⟨a00, a01, a02, a10, a11, a12, a20, a21, a30, a31, a40, a41, a50, a51, a60, a61, a70, a71⟩ := idx_facts t
  show (V m c main_v25 : S16x128.Idx → EReal) (((cfg0.win 4).blk t).view.emb (ix2 q k)) = _
  refine congrArg _ (funext fun a => Fin.ext ?_)
  match a with
  | ⟨0, _⟩ => show win0_4.index t (0 : Fin 2) * 16 + 1 * q.val = s.val; omega
  | ⟨1, _⟩ => show win0_4.index t (1 : Fin 2) * 128 + 1 * k.val = k.val; omega

/-- Window 5's block is the whole row of structure means, at every point. -/
theorem blk_mct (c : Dev nD) (t : Fin cfg0.N) (q : Fin 16) (s : Fin 16) (hs : s.val = win0_7.index t (1 : Fin 2) * 16 + 1 * q.val) :
    iblk m c 5 t (ix2 (0 : Fin 1) q) = (V m c main_v29 : S1x16.Idx → EReal) (ix2 (0 : Fin 1) s) := by
  obtain ⟨a00, a01, a02, a10, a11, a12, a20, a21, a30, a31, a40, a41, a50, a51, a60, a61, a70, a71⟩ := idx_facts t
  show (V m c main_v29 : S1x16.Idx → EReal) (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 16 + 1 * q.val = s.val; omega

/-- Window 6's block is the whole row of means of squares, at every point. -/
theorem blk_mct2 (c : Dev nD) (t : Fin cfg0.N) (q : Fin 16) (s : Fin 16) (hs : s.val = win0_7.index t (1 : Fin 2) * 16 + 1 * q.val) :
    iblk m c 6 t (ix2 (0 : Fin 1) q) = (V m c main_v34 : S1x16.Idx → EReal) (ix2 (0 : Fin 1) s) := by
  obtain ⟨a00, a01, a02, a10, a11, a12, a20, a21, a30, a31, a40, a41, a50, a51, a60, a61, a70, a71⟩ := idx_facts t
  show (V m c main_v34 : S1x16.Idx → EReal) (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 16 + 1 * q.val = s.val; omega

set_option maxHeartbeats 800000 in
/-- What point t writes back is block t of G. -/
theorem flushed_eq (c : Dev nD) (t : Fin cfg0.N) :
    (dats m 0 c).flushed 7 t = ((cfg0.win 7).blk t).view.read (Elt Ideal) (G m c) := by
  rw [Cert.KernelIdeal.Value.flushed7]
  funext j
  obtain ⟨p, q, rfl⟩ : ∃ (p : Fin 1000) (q : Fin 16), j = ix2 p q := ⟨j 0, j 1, eq_ix2 j⟩
  show out0_7 (F := Ideal) (iblk m c 0 t) (iblk m c 1 t) (iblk m c 2 t) (iblk m c 3 t) (iblk m c 4 t) (iblk m c 5 t) (iblk m c 6 t) (ix2 p q)
    = G m c (((cfg0.win 7).blk t).view.emb (ix2 p q))
  refine (congrFun (out_eq (iblk m c 0 t) (iblk m c 1 t) (iblk m c 2 t) (iblk m c 3 t) (iblk m c 4 t) (iblk m c 5 t) (iblk m c 6 t)) (ix2 p q)).trans ?_
  refine (Cert.KernelIdeal.Combine.body_apply (iblk m c 0 t) (iblk m c 1 t) (iblk m c 2 t) (iblk m c 3 t) (iblk m c 4 t) (iblk m c 5 t) (iblk m c 6 t) p q).trans ?_
  unfold G Gat
  exact distance_congr
    (funext fun r => funext fun k => blk_features m c t p r k _ rfl)
    (funext fun r => funext fun e => blk_non m c t p r e _ rfl)
    (funext fun b => blk_nbrs m c t p b _ rfl)
    (blk_tsq m c t q _ rfl)
    (funext fun k => blk_tmean m c t q k _ rfl)
    (blk_mct m c t q _ rfl)
    (blk_mct2 m c t q _ rfl)

/-- An index of the output is in point t's block iff each coordinate is in the block's range on its axis. -/
theorem mem_blk (t : Fin cfg0.N) (i : S50000x16.Idx) :
    i ∈ ((cfg0.win 7).blk t).view.set ↔ ∀ a : Fin 2, win0_7.index t a * S1000x16.size a ≤ (i a).val
      ∧ (i a).val < win0_7.index t a * S1000x16.size a + S1000x16.size a := by
  show i ∈ ((View.whole main_v35).slice (win0_7.rect t)).set ↔ _
  rw [View.set_slice_whole, Rect.mem_set_unit]
  exact Iff.rfl

/-- Row n of the output lies in the block of point n / 1000. -/
theorem cover (i : S50000x16.Idx) :
    ∃ t : Fin cfg0.N, (cfg0.win 7).flush t = true ∧ i ∈ ((cfg0.win 7).blk t).view.set := by
  have hi0 : (i 0).val < 50000 := (i 0).isLt
  have hi1 : (i 1).val < 16 := (i 1).isLt
  have hN : (i 0).val / 1000 < cfg0.N := by show (i 0).val / 1000 < 50; omega
  refine ⟨⟨(i 0).val / 1000, hN⟩, flush0_7 _, ?_⟩
  rw [mem_blk]
  obtain ⟨-, -, -, -, -, -, -, -, -, -, -, -, -, -, -, -, a70, a71⟩ := idx_facts ⟨(i 0).val / 1000, hN⟩
  intro a
  match a with
  | ⟨0, _⟩ =>
    show win0_7.index ⟨(i 0).val / 1000, hN⟩ (0 : Fin 2) * 1000 ≤ (i 0).val
      ∧ (i 0).val < win0_7.index ⟨(i 0).val / 1000, hN⟩ (0 : Fin 2) * 1000 + 1000
    rw [a70]
    show (i 0).val / 1000 * 1000 ≤ (i 0).val ∧ (i 0).val < (i 0).val / 1000 * 1000 + 1000
    omega
  | ⟨1, _⟩ =>
    show win0_7.index ⟨(i 0).val / 1000, hN⟩ (1 : Fin 2) * 16 ≤ (i 1).val
      ∧ (i 1).val < win0_7.index ⟨(i 0).val / 1000, hN⟩ (1 : Fin 2) * 16 + 16
    rw [a71]
    omega

/-- The output array after the run is G. -/
theorem final (c : Dev nD) : (dats m 0 c).arrAt 7 cfg0.N = G m c :=
  (dats m 0 c).arrAt_eq_of_cover 7 (G m c) (fun t _ => flushed_eq m c t) cover

/-- The kernel's run: the result ends at G, the arguments unchanged. -/
theorem run : θ_run defs (onTc (τ := τ) (main (F := Ideal))) ⟨m, fun _ => 0, ρ⟩ fun r => ∀ c : Dev nD,
      r.2.mem ((c : Thread nD τ).loc main_v35) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

/-- G over the arguments: the arrays the region finds are the reference's stages of the arguments. -/
theorem G_apply (c : Dev nD) (n : Fin 50000) (t : Fin 16) :
    G m c (ix2 n t)
      = distance (fun r k => Cert.ReferenceIdeal.Read.val_main_v9 (F := Ideal) (m ((c.tc : Thread nD τ).loc main_arg0)) (m ((c.tc : Thread nD τ).loc main_arg1)) (ix3 n r k))
          (fun r e => Cert.ReferenceIdeal.Read.val_main_v42 (F := Ideal) (m ((c.tc : Thread nD τ).loc main_arg1)) (ix3 n r e))
          (fun b => Cert.ReferenceIdeal.Read.val_main_v2 (F := Ideal) (m ((c.tc : Thread nD τ).loc main_arg1)) (ix2 n b))
          (Cert.ReferenceIdeal.Read.val_main_v22 (F := Ideal) (m ((c.tc : Thread nD τ).loc main_arg3)) (ix1 t))
          (fun k => Cert.ReferenceIdeal.Read.val_main_v25 (F := Ideal) (m ((c.tc : Thread nD τ).loc main_arg3)) (ix2 t k))
          (Cert.ReferenceIdeal.Read.val_main_v55 (F := Ideal) (m ((c.tc : Thread nD τ).loc main_arg2)) (ix1 t))
          (Cert.ReferenceIdeal.Read.val_main_v59 (F := Ideal) (m ((c.tc : Thread nD τ).loc main_arg2)) (ix1 t)) := by
  show Gat m c n t = _
  unfold Gat
  rw [Cert.KernelIdeal.HostPrefix.V_features, Cert.KernelIdeal.HostPrefix.V_non, Cert.KernelIdeal.HostPrefix.V_nbrs,
    Cert.KernelIdeal.HostPrefix.V_tsq, Cert.KernelIdeal.HostPrefix.V_tmean, Cert.KernelIdeal.HostPrefix.V_mct,
    Cert.KernelIdeal.HostPrefix.V_mct2]
  rw [shapeCast_a_1a_apply, shapeCast_a_1a_apply, shapeCast_a_1a_apply]

end Cert.KernelIdeal.Blocks

end
-- ==== Proof.LibAnyAxis.lean ====
/-
  "Is any entry along an axis true?" on the host, for a rank-4 array of truth values [n, a, c, b] reduced along its
  third axis with bitwise or.

  Bitwise or on one-bit words is commutative and associative, so the host's reduction is the fold of or over the
  coordinates of the reduced axis, in any order; and a fold of or over a finite set is 1 exactly when the initial value
  is 1 or some folded value is 1.  Hence the reduced entry (i, j, k) is 1 iff the initial value is 1 or the operand is 1 at
  (i, j, e, k) for some e.
-/
import Idealize.ShloMosaic.PureOps.Reduce
import Idealize.ShloMosaic.Lib.ValueIdx

noncomputable section

namespace Cert.LibAnyAxis

open Idealize.ShloMosaic Idealize.ShloMosaic.ValueIdx

/-- A one-bit word is 0 or 1. -/
theorem bit_cases (x : BitVec 1) : x = 0#1 ∨ x = 1#1 := by
  by_cases h : x = 1#1
  · exact Or.inr h
  · exact Or.inl (eq_zero_of_ne_one h)

instance : Std.Commutative (IntOp.ori (w := 1)) :=
  ⟨fun x y => by rcases bit_cases x with rfl | rfl <;> rcases bit_cases y with rfl | rfl <;> rfl⟩
instance : Std.Associative (IntOp.ori (w := 1)) :=
  ⟨fun x y z => by
    rcases bit_cases x with rfl | rfl <;> rcases bit_cases y with rfl | rfl <;> rcases bit_cases z with rfl | rfl <;> rfl⟩

/-- The or of two one-bit words is 1 iff one of them is. -/
theorem ori_eq_one (x y : BitVec 1) : IntOp.ori x y = 1#1 ↔ x = 1#1 ∨ y = 1#1 := by
  rcases bit_cases x with rfl | rfl <;> rcases bit_cases y with rfl | rfl <;> decide

/-- A fold of or over a finite set is 1 iff the initial value is 1 or some folded value is. -/
theorem fold_ori_eq_one {ι : Type} [DecidableEq ι] (s : Finset ι) (init : BitVec 1) (f : ι → BitVec 1) :
    s.fold IntOp.ori init f = 1#1 ↔ init = 1#1 ∨ ∃ e ∈ s, f e = 1#1 := by
  refine Finset.induction_on s ?_ ?_
  · simp
  · intro e s he ih
    rw [Finset.fold_insert he, ori_eq_one, ih]
    constructor
    · rintro (h | h | ⟨e', he', h⟩)
      · exact Or.inr ⟨e, Finset.mem_insert_self _ _, h⟩
      · exact Or.inl h
      · exact Or.inr ⟨e', Finset.mem_insert_of_mem he', h⟩
    · rintro (h | ⟨e', he', h⟩)
      · exact Or.inr (Or.inl h)
      · rcases Finset.mem_insert.1 he' with rfl | hs
        · exact Or.inl h
        · exact Or.inr (Or.inr ⟨e', hs, h⟩)

variable {n a c b : ℕ}

/-- Over (i, j, k), with `e` inserted on the third axis: (i, j, e, k). -/
theorem lift_third (h : (⟨4, ![n, a, c, b]⟩ : Shape).Reduces [2] ⟨3, ![n, a, b]⟩) (i : Fin n) (j : Fin a) (k : Fin b) (e : Fin c) :
    h.lift (ix3 i j k) e = ix4 i j e k := by
  funext ax
  apply Fin.ext
  match ax with
  | ⟨0, _⟩ => rfl
  | ⟨1, _⟩ => rfl
  | ⟨2, _⟩ => rfl
  | ⟨3, _⟩ => rfl

/-- The host's or along the third axis, at (i, j, k): 1 iff the initial value is 1 or some entry (i, j, e, k) is 1. -/
theorem hostReduce_or_third {u : Shape} (x : (⟨4, ![n, a, c, b]⟩ : Shape).Idx → BitVec 1) (init : u.Idx → BitVec 1)
    (h' : (⟨4, ![n, a, c, b]⟩ : Shape).ReducesTo [2] ⟨3, ![n, a, b]⟩) (h : (⟨4, ![n, a, c, b]⟩ : Shape).Reduces [2] ⟨3, ![n, a, b]⟩)
    (hu : 0 < u.numel) (i : Fin n) (j : Fin a) (k : Fin b) :
    Host.reduce IntOp.ori x init h' hu (ix3 i j k) = 1#1
      ↔ init (Shape.Idx.first hu) = 1#1 ∨ ∃ e : Fin c, x (ix4 i j e k) = 1#1 := by
  rw [Host.reduce_eq_fold_single IntOp.ori x init h' h hu (ix3 i j k), fold_ori_eq_one]
  refine or_congr Iff.rfl ⟨?_, ?_⟩
  · rintro ⟨e, _, he⟩
    exact ⟨e, by rw [← lift_third h i j k e]; exact he⟩
  · rintro ⟨e, he⟩
    exact ⟨e, Finset.mem_univ _, by show x (h.lift (ix3 i j k) e) = 1#1; rw [lift_third h i j k e]; exact he⟩

end Cert.LibAnyAxis

end
-- ==== Proof.ReferenceDistance.lean ====
/-
  The reference program's result, read at an entry.

  The reference gathers the neighbours' feature rows F and the neighbours' neighbour ids, and then works on whole arrays:
  sums of squares and sums over the neighbours divided by 16, a product of the mean feature rows with the transposed mean
  template rows, an "is any id in this row equal to that neighbour id" reduction turned into 0/1, its mean over 256
  entries, and the same final combination as the kernel.  Read at entry (n, t), with the three gathered arrays and the four
  template statistics kept as the stages that compute them, it is `distance` of node n's row data against template t.
  The host's sums carry an initial value, the zero word, which adds nothing.
-/
import proofs.«157226_j10977936409018_1_alg».proof.Proof.Gen.ReferenceIdeal.Read
import proofs.«157226_j10977936409018_1_alg».proof.Proof.LibPairSum
import proofs.«157226_j10977936409018_1_alg».proof.Proof.LibAnyAxis
import proofs.«157226_j10977936409018_1_alg».proof.Proof.TemplateDistance
import Idealize.ShloMosaic.Lib.Affine

noncomputable section

namespace Cert.ReferenceIdeal.RefValue

open Idealize.ShloMosaic Idealize.ShloMosaic.ValueIdx Cert.ReferenceIdeal Cert.ReferenceIdeal.Gen Cert.ReferenceIdeal.Read
open Cert.TemplateDistance

/-- Two indices of a literal shape are equal when their coordinates are, axis by axis. -/
macro "ix_ext1" : tactic => `(tactic| (funext a; apply Fin.ext; match a with | ⟨0, _⟩ => rfl))
macro "ix_ext2" : tactic => `(tactic| (funext a; apply Fin.ext; match a with | ⟨0, _⟩ => rfl | ⟨1, _⟩ => rfl))
macro "ix_ext3" : tactic => `(tactic| (funext a; apply Fin.ext; match a with | ⟨0, _⟩ => rfl | ⟨1, _⟩ => rfl | ⟨2, _⟩ => rfl))

variable (x0 : (⟨S50000x128, .f32⟩ : BufTy).Contents (Elt Ideal)) (x1 : (⟨S2x800000, .i32⟩ : BufTy).Contents (Elt Ideal))
    (x2 : (⟨S16x8x8, .f32⟩ : BufTy).Contents (Elt Ideal)) (x3 : (⟨S16x8x128, .f32⟩ : BufTy).Contents (Elt Ideal))

/-- The mean over the neighbours of the squared norm of node n's gathered feature rows. -/
theorem sq_apply (n : Fin 50000) :
    val_main_v14 (F := Ideal) x0 x1 (ix1 n) = sqMean (fun r k => val_main_v9 (F := Ideal) x0 x1 (ix3 n r k)) := by
  unfold sqMean
  rw [val_main_v14_apply, val_main_v12_apply, val_main_v13_apply]
  simp only [val_main_cst_1_apply, val_main_cst_2_apply, Ideal.ofBits_def, Ideal.hostDivf_def, Ideal.ofBits_zero_f32, zero_add]
  refine congrArg (Ideal.div · c16) (Finset.sum_congr rfl fun r _ => ?_)
  rw [val_main_v11_apply]
  simp only [val_main_cst_apply, Ideal.ofBits_def, Ideal.ofBits_zero_f32, zero_add]
  refine Finset.sum_congr rfl fun k _ => ?_
  rw [val_main_v10_apply, Ideal.mulf_def]
  have e : idx_main_v11 (idx_main_v12 (ix1 n) r) k = ix3 n r k := by ix_ext3
  rw [e]

/-- Feature k of node n's mean gathered feature row. -/
theorem fmean_apply (n : Fin 50000) (k : Fin 128) :
    val_main_v17 (F := Ideal) x0 x1 (ix2 n k) = featMean (fun r k => val_main_v9 (F := Ideal) x0 x1 (ix3 n r k)) k := by
  unfold featMean
  rw [val_main_v17_apply, val_main_v15_apply, val_main_v16_apply]
  simp only [val_main_cst_3_apply, val_main_cst_4_apply, Ideal.ofBits_def, Ideal.hostDivf_def, Ideal.ofBits_zero_f32, zero_add]
  refine congrArg (Ideal.div · c16) (Finset.sum_congr rfl fun r _ => ?_)
  have e : idx_main_v15 (ix2 n k) r = ix3 n r k := by ix_ext3
  rw [e]

/-- The feature term at (n, t). -/
theorem feat_apply (n : Fin 50000) (t : Fin 16) :
    val_main_v35 (F := Ideal) x0 x1 x3 (ix2 n t)
      = featTerm (fun r k => val_main_v9 (F := Ideal) x0 x1 (ix3 n r k)) (val_main_v22 (F := Ideal) x3 (ix1 t))
          (fun k => val_main_v25 (F := Ideal) x3 (ix2 t k)) := by
  unfold featTerm
  rw [val_main_v35_apply, val_main_v30_apply, val_main_v34_apply, val_main_v28_apply, val_main_v26_apply, val_main_v29_apply,
    val_main_v27_apply, val_main_v33_apply, val_main_v32_apply]
  simp only [val_main_cst_10_apply, Ideal.ofBits_def, Ideal.addf_def, Ideal.subf_def, Ideal.mulf_def]
  have e1 : idx_main_v26 (idx_main_v28 (ix2 n t)) = ix1 n := by ix_ext1
  have e2 : idx_main_v27 (idx_main_v29 (ix2 n t)) = ix1 t := by ix_ext1
  rw [e1, e2, sq_apply]
  refine congrArg₂ (· - ·) rfl (congrArg (c2 * ·) (Finset.sum_congr rfl fun k _ => ?_))
  have e3 : lidx_main_v32 (ix2 n t) k = ix2 n k := by ix_ext2
  have e4 : ridx_main_v32 (ix2 n t) k = ix2 k t := by ix_ext2
  rw [e3, e4, fmean_apply, val_main_v31_apply]
  have e5 : idx_main_v31 (ix2 k t) = ix2 t k := by ix_ext2
  rw [e5]

/-- Entry (n, r, e, q) of the comparison: is id e of neighbour r's neighbours equal to neighbour q's id? -/
theorem cmp_apply (n : Fin 50000) (r e q : Fin 16) :
    val_main_v47 (F := Ideal) x1 (ix4 n r e q)
      = IntOp.cmpi .eq (val_main_v42 (F := Ideal) x1 (ix3 n r e)) (val_main_v2 (F := Ideal) x1 (ix2 n q)) := by
  rw [val_main_v47_apply, val_main_v45_apply, val_main_v43_apply, val_main_v46_apply, val_main_v44_apply]
  have e1 : idx_main_v43 (idx_main_v45 (ix4 n r e q)) = ix3 n r e := by ix_ext3
  have e2 : idx_main_v44 (idx_main_v46 (ix4 n r e q)) = ix2 n q := by ix_ext2
  rw [e1, e2]

/-- The or along the third axis, at (n, r, q): is some id of neighbour r's neighbours equal to neighbour q's id? -/
theorem any_apply (n : Fin 50000) (r q : Fin 16) :
    val_main_v48 (F := Ideal) x1 (ix3 n r q) = 1#1
      ↔ ∃ e : Fin 16, val_main_v42 (F := Ideal) x1 (ix3 n r e) = val_main_v2 (F := Ideal) x1 (ix2 n q) := by
  unfold val_main_v48
  rw [Cert.LibAnyAxis.hostReduce_or_third _ _ _ (by decide) _ n r q]
  constructor
  · rintro (h | ⟨e, he⟩)
    · exact absurd h (by decide)
    · exact ⟨e, IntOp.cmpi_eq.1 ((cmp_apply x1 n r e q).symm.trans he)⟩
  · rintro ⟨e, he⟩
    exact Or.inr ⟨e, (cmp_apply x1 n r e q).trans (IntOp.cmpi_eq.2 he)⟩

/-- The induced adjacency at (n, r, q). -/
theorem adj_apply (n : Fin 50000) (r q : Fin 16) :
    val_main_v49 (F := Ideal) x1 (ix3 n r q)
      = adj (fun r e => val_main_v42 (F := Ideal) x1 (ix3 n r e)) (fun b => val_main_v2 (F := Ideal) x1 (ix2 n b)) r q := by
  rw [val_main_v49_apply]
  unfold adj
  refine (Cert.LibIndicator.uitofp_bit _).trans ?_
  by_cases h : ∃ e : Fin 16, val_main_v42 (F := Ideal) x1 (ix3 n r e) = val_main_v2 (F := Ideal) x1 (ix2 n q)
  · rw [if_pos ((any_apply x1 n r q).2 h), if_pos h]
  · rw [if_neg (fun h' => h ((any_apply x1 n r q).1 h')), if_neg h]

/-- The density of node n's induced adjacency. -/
theorem density_apply (n : Fin 50000) :
    val_main_v52 (F := Ideal) x1 (ix1 n)
      = density (fun r e => val_main_v42 (F := Ideal) x1 (ix3 n r e)) (fun b => val_main_v2 (F := Ideal) x1 (ix2 n b)) := by
  unfold density
  rw [val_main_v52_apply, val_main_v51_apply]
  unfold val_main_v50
  rw [Cert.LibPairSum.hostReduceAdd_pair]
  simp only [val_main_cst_14_apply, val_main_cst_15_apply, Ideal.ofBits_def, Ideal.hostDivf_def, Ideal.ofBits_zero_f32, zero_add]
  refine congrArg (Ideal.div · c256) ?_
  exact Finset.sum_congr rfl fun r _ => Finset.sum_congr rfl fun q _ => adj_apply x1 n r q

/-- The structure term at (n, t). -/
theorem struct_apply (n : Fin 50000) (t : Fin 16) :
    val_main_v72 (F := Ideal) x1 x2 (ix2 n t)
      = structTerm (density (fun r e => val_main_v42 (F := Ideal) x1 (ix3 n r e)) (fun b => val_main_v2 (F := Ideal) x1 (ix2 n b)))
          (val_main_v55 (F := Ideal) x2 (ix1 t)) (val_main_v59 (F := Ideal) x2 (ix1 t)) := by
  unfold structTerm
  rw [val_main_v72_apply, val_main_v64_apply, val_main_v71_apply, val_main_v62_apply, val_main_v60_apply, val_main_v63_apply,
    val_main_v61_apply, val_main_v69_apply, val_main_v67_apply, val_main_v66_apply, val_main_v65_apply, val_main_v70_apply,
    val_main_v68_apply]
  simp only [val_main_cst_20_apply, Ideal.ofBits_def, Ideal.addf_def, Ideal.subf_def, Ideal.mulf_def]
  have e1 : idx_main_v60 (idx_main_v62 (ix2 n t)) = ix1 n := by ix_ext1
  have e2 : idx_main_v61 (idx_main_v63 (ix2 n t)) = ix1 t := by ix_ext1
  have e3 : idx_main_v65 (idx_main_v69 (ix2 n t)) = ix1 n := by ix_ext1
  have e4 : idx_main_v68 (idx_main_v70 (ix2 n t)) = ix1 t := by ix_ext1
  rw [e1, e2, e3, e4, density_apply]

/-- The reference's result at (n, t): the distance of node n's row data to template t. -/
theorem ref_apply (n : Fin 50000) (t : Fin 16) :
    val_main_v77 (F := Ideal) x0 x1 x2 x3 (ix2 n t)
      = distance (fun r k => val_main_v9 (F := Ideal) x0 x1 (ix3 n r k)) (fun r e => val_main_v42 (F := Ideal) x1 (ix3 n r e))
          (fun b => val_main_v2 (F := Ideal) x1 (ix2 n b)) (val_main_v22 (F := Ideal) x3 (ix1 t))
          (fun k => val_main_v25 (F := Ideal) x3 (ix2 t k)) (val_main_v55 (F := Ideal) x2 (ix1 t))
          (val_main_v59 (F := Ideal) x2 (ix1 t)) := by
  unfold distance
  rw [val_main_v77_apply, val_main_v74_apply, val_main_v76_apply, val_main_v73_apply, val_main_v75_apply]
  simp only [val_main_cst_21_apply, val_main_cst_22_apply, Ideal.ofBits_def, Ideal.addf_def, Ideal.mulf_def]
  rw [feat_apply, struct_apply]

end Cert.ReferenceIdeal.RefValue

end
-- ==== Proof.lean ====
/-
  The certificate of a graph kernel that scores every node's neighbourhood against sixteen templates.

  For node n with its sixteen neighbours and template t, both programs compute
      ½ · ( E‖f‖² + tsq(t) − 2⟨E f, tmean(t)⟩ )  +  ½ · ( d + mct2(t) − (2d)·mct(t) ),
  where f ranges over the neighbours' 128-feature rows, the means E are over the sixteen neighbours, and d is the
  density of the induced adjacency: the fraction of pairs (r, q) of neighbours such that neighbour q's id occurs among
  neighbour r's own sixteen neighbour ids.  The template statistics tsq, tmean, mct, mct2 are means over a template's
  feature rows and structure matrix.

  The two programs differ in three ways, none of which matters on the extended reals.  The kernel works on blocks of 1000
  nodes where the reference works on whole arrays: an entry of the result depends on its own node's row data only.  The
  kernel takes the template statistics as [1, 16] rows where the reference broadcasts [16] vectors: the same numbers.
  And the kernel finds the induced adjacency by COUNTING, for each pair (r, q), the ids in row r equal to q's id and asking
  whether the count is positive, where the reference asks whether ANY id in row r equals q's id: a finite sum of zeros and
  ones is positive exactly when one of them is one.  Sums are only ever re-read, never re-associated across a product, so
  no finiteness of the inputs is used.

  The kernel's frame and the per-block value are taken from the generated modules, as is the reference's run; the hand
  modules read both results at an entry (n, t) as the one function `TemplateDistance.distance` of node n's row data and
  template t's statistics.  The idealization rewrote nothing, so its preservation claim is trivial.
-/
import proofs.«157226_j10977936409018_1_alg».proof.Defs
import proofs.«157226_j10977936409018_1_alg».proof.Proof.Gen.Kernel
import proofs.«157226_j10977936409018_1_alg».proof.Proof.Gen.Kernel.Skeleton
import proofs.«157226_j10977936409018_1_alg».proof.Proof.Gen.Kernel.Launch
import proofs.«157226_j10977936409018_1_alg».proof.Proof.Gen.Kernel.Points
import proofs.«157226_j10977936409018_1_alg».proof.Proof.Gen.Kernel.Frame
import proofs.«157226_j10977936409018_1_alg».proof.Proof.Gen.KernelIdeal
import proofs.«157226_j10977936409018_1_alg».proof.Proof.Gen.KernelIdeal.Skeleton
import proofs.«157226_j10977936409018_1_alg».proof.Proof.Gen.KernelIdeal.Launch
import proofs.«157226_j10977936409018_1_alg».proof.Proof.Gen.KernelIdeal.Points
import proofs.«157226_j10977936409018_1_alg».proof.Proof.Gen.KernelIdeal.Frame
import proofs.«157226_j10977936409018_1_alg».proof.Proof.Gen.ReferenceIdeal
import proofs.«157226_j10977936409018_1_alg».proof.Proof.Gen.KernelIdeal.Value
import proofs.«157226_j10977936409018_1_alg».proof.Proof.Gen.ReferenceIdeal.Run
import proofs.«157226_j10977936409018_1_alg».proof.Proof.Gen.ReferenceIdeal.Read
import proofs.«157226_j10977936409018_1_alg».proof.Proof.Gen.Pre_finite_inputs
import proofs.«157226_j10977936409018_1_alg».proof.Proof.Blocks
import proofs.«157226_j10977936409018_1_alg».proof.Proof.ReferenceDistance
import Idealize.ShloMosaic.Adequacy
import Idealize.ShloMosaic.Init

noncomputable section

namespace Cert.Proof

open Idealize.ShloMosaic Idealize.SL.Sem Idealize.ShloMosaic.ValueIdx

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's output array and the reference's result are the same array: at entry (n, t)
    both are the distance of node n's row data to template t. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2]
  funext i
  obtain ⟨n, t, rfl⟩ : ∃ (n : Fin 50000) (t : Fin 16), i = ix2 n t := ⟨i 0, i 1, eq_ix2 i⟩
  rw [Cert.ReferenceIdeal.RefValue.ref_apply]
  exact (Cert.KernelIdeal.Blocks.G_apply m c n t).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
